-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_arg8 : FVec F S64 .f32) (main_arg9 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg4 : FVec F S64 .f32) (main_arg5 : FVec F S64 .f32) (main_arg6 : FVec F S64x64 .f32) (main_arg7 : FVec F S64 .f32) (main_arg8 : FVec F S64 .f32) (main_arg9 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_v33

def fn {F : FTy → Type} [FloatOps F] (main_arg0 : FVec F S100000x64 .f32) (main_arg1 : FVec F S1600000 .f32) (main_arg2 : FVec F S64x64 .f32) (main_arg3 : FVec F S64 .f32) (main_arg4 : FVec F S64 .f32) (main_arg5 : FVec F S64 .f32) (main_arg6 : FVec F S64x64 .f32) (main_arg7 : FVec F S64 .f32) (main_arg8 : FVec F S64 .f32) (main_arg9 : FVec F S64 .f32) (main_arg10 : IVec S1600000 32) (main_arg11 : IVec S1600000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_v13 main_v16
-- ==== Kernel.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S1600000x1 : Shape := ⟨2, ![1600000, 1]⟩
abbrev S_ : Shape := ⟨0, ![]⟩
abbrev S1600000x64 : Shape := ⟨2, ![1600000, 64]⟩
abbrev S1x64 : Shape := ⟨2, ![1, 64]⟩
abbrev S5000x64 : Shape := ⟨2, ![5000, 64]⟩
abbrev S5000 : Shape := ⟨1, ![5000]⟩
abbrev S5000x1 : Shape := ⟨2, ![5000, 1]⟩

abbrev nBuf : Space → Nat
  | .hbm => 37
  | .vmem => 14
  | .smem => 0
  | _ => 0

abbrev bufTy : (tb : Table) → Fin (tcTables nBuf tb) → BufTy
  | .hbm, ⟨0, _⟩ => ⟨S100000x64, .f32⟩
  | .hbm, ⟨1, _⟩ => ⟨S1600000, .f32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S1600000, .i32⟩
  | .hbm, ⟨11, _⟩ => ⟨S1600000, .i32⟩
  | .hbm, ⟨12, _⟩ => ⟨S1600000x1, .f32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x64, .f32⟩
  | .hbm, ⟨22, _⟩ => ⟨S1600000x64, .f32⟩
  | .hbm, ⟨23, _⟩ => ⟨S1600000x64, .f32⟩
  | .hbm, ⟨24, _⟩ => ⟨S_, .f32⟩
  | .hbm, ⟨25, _⟩ => ⟨S100000x64, .f32⟩
  | .hbm, ⟨26, _⟩ => ⟨S1600000x1, .i32⟩
  | .hbm, ⟨27, _⟩ => ⟨S100000x64, .f32⟩
  | .hbm, ⟨28, _⟩ => ⟨S64x64, .f32⟩
  | .hbm, ⟨29, _⟩ => ⟨S64x64, .f32⟩
  | .hbm, ⟨30, _⟩ => ⟨S1x64, .f32⟩
  | .hbm, ⟨31, _⟩ => ⟨S1x64, .f32⟩
  | .hbm, ⟨32, _⟩ => ⟨S1x64, .f32⟩
  | .hbm, ⟨33, _⟩ => ⟨S1x64, .f32⟩
  | .hbm, ⟨34, _⟩ => ⟨S1x64, .f32⟩
  | .hbm, ⟨35, _⟩ => ⟨S1x64, .f32⟩
  | .hbm, ⟨36, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S1x64, .f32⟩
  | .local _ .vmem, ⟨7, _⟩ => ⟨S1x64, .f32⟩
  | .local _ .vmem, ⟨8, _⟩ => ⟨S64x64, .f32⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S5000x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  transposes_S64x64_S64x64_1_0 : S64x64.Transposes [1, 0] S64x64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  shapeCasts_S5000x64_S5000x64 : S5000x64.ShapeCasts S5000x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S5000x64.size a ≤ S100000x64.size a
  hwx0_10 : ∀ i : grid0.Coords, EltTy.bits .f32 = 32 ∨ (Rect.block (s := S100000x64) S5000x64.size (cc0_transform_10 i) (hinb0_10 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v18) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v19) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v20) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v21) S5000x64.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S1600000x1 : Shape := ⟨2, ![1600000, 1]⟩
abbrev S_ : Shape := ⟨0, ![]⟩
abbrev S1600000x64 : Shape := ⟨2, ![1600000, 64]⟩
abbrev S1x64 : Shape := ⟨2, ![1, 64]⟩
abbrev S100000 : Shape := ⟨1, ![100000]⟩
abbrev S100000x1 : Shape := ⟨2, ![100000, 1]⟩

abbrev nBuf : Space → Nat
  | .hbm => 133
  | .vmem => 0
  | .smem => 0
  | _ => 0

abbrev hbmTy0_0 (i : Nat) : BufTy := match i % 128 with
  | 0 => ⟨S100000x64, .f32⟩
  | 1 => ⟨S1600000, .f32⟩
  | 2 => ⟨S64x64, .f32⟩
  | 3 => ⟨S64, .f32⟩
  | 4 => ⟨S64, .f32⟩
  | 5 => ⟨S64, .f32⟩
  | 6 => ⟨S64x64, .f32⟩
  | 7 => ⟨S64, .f32⟩
  | 8 => ⟨S64, .f32⟩
  | 9 => ⟨S64, .f32⟩
  | 10 => ⟨S1600000, .i32⟩
  | 11 => ⟨S1600000, .i32⟩
  | 12 => ⟨S1600000x1, .f32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S1600000x64, .f32⟩
  | 22 => ⟨S1600000x64, .f32⟩
  | 23 => ⟨S1600000x64, .f32⟩
  | 24 => ⟨S_, .f32⟩
  | 25 => ⟨S100000x64, .f32⟩
  | 26 => ⟨S1600000x1, .i32⟩
  | 27 => ⟨S100000x64, .f32⟩
  | 28 => ⟨S64x64, .f32⟩
  | 29 => ⟨S100000x64, .f32⟩
  | 30 => ⟨S1x64, .f32⟩
  | 31 => ⟨S100000x64, .f32⟩
  | 32 => ⟨S100000x64, .f32⟩
  | 33 => ⟨S_, .f32⟩
  | 34 => ⟨S100000x64, .f32⟩
  | 35 => ⟨S100000x64, .f32⟩
  | 36 => ⟨S_, .f32⟩
  | 37 => ⟨S100000, .f32⟩
  | 38 => ⟨S100000x1, .f32⟩
  | 39 => ⟨S_, .f32⟩
  | 40 => ⟨S100000x1, .f32⟩
  | 41 => ⟨S100000x1, .f32⟩
  | 42 => ⟨S_, .i32⟩
  | 43 => ⟨S_, .f32⟩
  | 44 => ⟨S100000, .f32⟩
  | 45 => ⟨S100000x1, .f32⟩
  | 46 => ⟨S_, .f32⟩
  | 47 => ⟨S100000x1, .f32⟩
  | 48 => ⟨S100000x1, .f32⟩
  | 49 => ⟨S100000x64, .f32⟩
  | 50 => ⟨S100000x64, .f32⟩
  | 51 => ⟨S100000x64, .f32⟩
  | 52 => ⟨S_, .f32⟩
  | 53 => ⟨S_, .f32⟩
  | 54 => ⟨S_, .f32⟩
  | 55 => ⟨S_, .f32⟩
  | 56 => ⟨S100000, .f32⟩
  | 57 => ⟨S100000x1, .f32⟩
  | 58 => ⟨S100000x1, .f32⟩
  | 59 => ⟨S100000x1, .f32⟩
  | 60 => ⟨S_, .f32⟩
  | 61 => ⟨S_, .i1⟩
  | 62 => ⟨S_, .f32⟩
  | 63 => ⟨S_, .f32⟩
  | 64 => ⟨S100000x1, .f32⟩
  | 65 => ⟨S100000x1, .f32⟩
  | 66 => ⟨S_, .f32⟩
  | 67 => ⟨S100000x1, .f32⟩
  | 68 => ⟨S100000x1, .f32⟩
  | 69 => ⟨S100000x64, .f32⟩
  | 70 => ⟨S100000x64, .f32⟩
  | 71 => ⟨S1x64, .f32⟩
  | 72 => ⟨S100000x64, .f32⟩
  | 73 => ⟨S100000x64, .f32⟩
  | 74 => ⟨S100000x1, .f32⟩
  | 75 => ⟨S100000x64, .f32⟩
  | 76 => ⟨S100000x64, .f32⟩
  | 77 => ⟨S1x64, .f32⟩
  | 78 => ⟨S100000x64, .f32⟩
  | 79 => ⟨S100000x64, .f32⟩
  | 80 => ⟨S64x64, .f32⟩
  | 81 => ⟨S100000x64, .f32⟩
  | 82 => ⟨S1x64, .f32⟩
  | 83 => ⟨S100000x64, .f32⟩
  | 84 => ⟨S100000x64, .f32⟩
  | 85 => ⟨S_, .f32⟩
  | 86 => ⟨S100000x64, .f32⟩
  | 87 => ⟨S100000x64, .f32⟩
  | 88 => ⟨S_, .f32⟩
  | 89 => ⟨S100000, .f32⟩
  | 90 => ⟨S100000x1, .f32⟩
  | 91 => ⟨S_, .f32⟩
  | 92 => ⟨S100000x1, .f32⟩
  | 93 => ⟨S100000x1, .f32⟩
  | 94 => ⟨S_, .i32⟩
  | 95 => ⟨S_, .f32⟩
  | 96 => ⟨S100000, .f32⟩
  | 97 => ⟨S100000x1, .f32⟩
  | 98 => ⟨S_, .f32⟩
  | 99 => ⟨S100000x1, .f32⟩
  | 100 => ⟨S100000x1, .f32⟩
  | 101 => ⟨S100000x64, .f32⟩
  | 102 => ⟨S100000x64, .f32⟩
  | 103 => ⟨S100000x64, .f32⟩
  | 104 => ⟨S_, .f32⟩
  | 105 => ⟨S_, .f32⟩
  | 106 => ⟨S_, .f32⟩
  | 107 => ⟨S_, .f32⟩
  | 108 => ⟨S100000, .f32⟩
  | 109 => ⟨S100000x1, .f32⟩
  | 110 => ⟨S100000x1, .f32⟩
  | 111 => ⟨S100000x1, .f32⟩
  | 112 => ⟨S_, .f32⟩
  | 113 => ⟨S_, .i1⟩
  | 114 => ⟨S_, .f32⟩
  | 115 => ⟨S_, .f32⟩
  | 116 => ⟨S100000x1, .f32⟩
  | 117 => ⟨S100000x1, .f32⟩
  | 118 => ⟨S_, .f32⟩
  | 119 => ⟨S100000x1, .f32⟩
  | 120 => ⟨S100000x1, .f32⟩
  | 121 => ⟨S100000x64, .f32⟩
  | 122 => ⟨S100000x64, .f32⟩
  | 123 => ⟨S1x64, .f32⟩
  | 124 => ⟨S100000x64, .f32⟩
  | 125 => ⟨S100000x64, .f32⟩
  | 126 => ⟨S100000x1, .f32⟩
  | 127 => ⟨S100000x64, .f32⟩
  | _ => ⟨S100000x64, .f32⟩

abbrev hbmTy0_1 (i : Nat) : BufTy := match i % 128 with
  | 0 => ⟨S100000x64, .f32⟩
  | 1 => ⟨S1x64, .f32⟩
  | 2 => ⟨S100000x64, .f32⟩
  | 3 => ⟨S100000x64, .f32⟩
  | 4 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_call0_cst : Ref sig .tc := ⟨.hbm, 33, rfl⟩
abbrev main_call0_v0 : Ref sig .tc := ⟨.hbm, 34, rfl⟩
abbrev main_v18 : Ref sig .tc := ⟨.hbm, 35, rfl⟩
abbrev main_cst_1 : Ref sig .tc := ⟨.hbm, 36, rfl⟩
abbrev main_v19 : Ref sig .tc := ⟨.hbm, 37, rfl⟩
abbrev main_v20 : Ref sig .tc := ⟨.hbm, 38, rfl⟩
abbrev main_cst_2 : Ref sig .tc := ⟨.hbm, 39, rfl⟩
abbrev main_v21 : Ref sig .tc := ⟨.hbm, 40, rfl⟩
abbrev main_v22 : Ref sig .tc := ⟨.hbm, 41, rfl⟩
abbrev main_c_3 : Ref sig .tc := ⟨.hbm, 42, rfl⟩
abbrev main_call1_cst : Ref sig .tc := ⟨.hbm, 43, rfl⟩
abbrev main_call1_v0 : Ref sig .tc := ⟨.hbm, 44, rfl⟩
abbrev main_call1_v1 : Ref sig .tc := ⟨.hbm, 45, rfl⟩
abbrev main_call1_cst_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_v6 : Ref sig .tc := ⟨.hbm, 51, rfl⟩
abbrev main_call1_v7 : Ref sig .tc := ⟨.hbm, 52, rfl⟩
abbrev main_call1_cst_1 : Ref sig .tc := ⟨.hbm, 53, rfl⟩
abbrev main_call1_v8 : Ref sig .tc := ⟨.hbm, 54, rfl⟩
abbrev main_call1_cst_2 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_v12 : Ref sig .tc := ⟨.hbm, 59, rfl⟩
abbrev main_call1_cst_3 : Ref sig .tc := ⟨.hbm, 60, rfl⟩
abbrev main_call1_v13 : Ref sig .tc := ⟨.hbm, 61, rfl⟩
abbrev main_call1_cst_4 : Ref sig .tc := ⟨.hbm, 62, rfl⟩
abbrev main_call1_call0_v0 : Ref sig .tc := ⟨.hbm, 63, rfl⟩
abbrev main_call1_call0_v1 : Ref sig .tc := ⟨.hbm, 64, rfl⟩
abbrev main_v23 : Ref sig .tc := ⟨.hbm, 65, rfl⟩
abbrev main_cst_4 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_call2_cst : Ref sig .tc := ⟨.hbm, 85, rfl⟩
abbrev main_call2_v0 : Ref sig .tc := ⟨.hbm, 86, rfl⟩
abbrev main_v42 : Ref sig .tc := ⟨.hbm, 87, rfl⟩
abbrev main_cst_5 : Ref sig .tc := ⟨.hbm, 88, rfl⟩
abbrev main_v43 : Ref sig .tc := ⟨.hbm, 89, rfl⟩
abbrev main_v44 : Ref sig .tc := ⟨.hbm, 90, rfl⟩
abbrev main_cst_6 : Ref sig .tc := ⟨.hbm, 91, rfl⟩
abbrev main_v45 : Ref sig .tc := ⟨.hbm, 92, rfl⟩
abbrev main_v46 : Ref sig .tc := ⟨.hbm, 93, rfl⟩
abbrev main_c_7 : Ref sig .tc := ⟨.hbm, 94, rfl⟩
abbrev main_call3_cst : Ref sig .tc := ⟨.hbm, 95, rfl⟩
abbrev main_call3_v0 : Ref sig .tc := ⟨.hbm, 96, rfl⟩
abbrev main_call3_v1 : Ref sig .tc := ⟨.hbm, 97, rfl⟩
abbrev main_call3_cst_0 : Ref sig .tc := ⟨.hbm, 98, rfl⟩
abbrev main_call3_v2 : Ref sig .tc := ⟨.hbm, 99, rfl⟩
abbrev main_call3_v3 : Ref sig .tc := ⟨.hbm, 100, rfl⟩
abbrev main_call3_v4 : Ref sig .tc := ⟨.hbm, 101, rfl⟩
abbrev main_call3_v5 : Ref sig .tc := ⟨.hbm, 102, rfl⟩
abbrev main_call3_v6 : Ref sig .tc := ⟨.hbm, 103, rfl⟩
abbrev main_call3_v7 : Ref sig .tc := ⟨.hbm, 104, rfl⟩
abbrev main_call3_cst_1 : Ref sig .tc := ⟨.hbm, 105, rfl⟩
abbrev main_call3_v8 : Ref sig .tc := ⟨.hbm, 106, rfl⟩
abbrev main_call3_cst_2 : Ref sig .tc := ⟨.hbm, 107, rfl⟩
abbrev main_call3_v9 : Ref sig .tc := ⟨.hbm, 108, rfl⟩
abbrev main_call3_v10 : Ref sig .tc := ⟨.hbm, 109, rfl⟩
abbrev main_call3_v11 : Ref sig .tc := ⟨.hbm, 110, rfl⟩
abbrev main_call3_v12 : Ref sig .tc := ⟨.hbm, 111, rfl⟩
abbrev main_call3_cst_3 : Ref sig .tc := ⟨.hbm, 112, rfl⟩
abbrev main_call3_v13 : Ref sig .tc := ⟨.hbm, 113, rfl⟩
abbrev main_call3_cst_4 : Ref sig .tc := ⟨.hbm, 114, rfl⟩
abbrev main_call3_call0_v0 : Ref sig .tc := ⟨.hbm, 115, rfl⟩
abbrev main_call3_call0_v1 : Ref sig .tc := ⟨.hbm, 116, rfl⟩
abbrev main_v47 : Ref sig .tc := ⟨.hbm, 117, rfl⟩
abbrev main_cst_8 : Ref sig .tc := ⟨.hbm, 118, rfl⟩
abbrev main_v48 : Ref sig .tc := ⟨.hbm, 119, rfl⟩
abbrev main_v49 : Ref sig .tc := ⟨.hbm, 120, rfl⟩
abbrev main_v50 : Ref sig .tc := ⟨.hbm, 121, rfl⟩
abbrev main_v51 : Ref sig .tc := ⟨.hbm, 122, rfl⟩
abbrev main_v52 : Ref sig .tc := ⟨.hbm, 123, rfl⟩
abbrev main_v53 : Ref sig .tc := ⟨.hbm, 124, rfl⟩
abbrev main_v54 : Ref sig .tc := ⟨.hbm, 125, rfl⟩
abbrev main_v55 : Ref sig .tc := ⟨.hbm, 126, rfl⟩
abbrev main_v56 : Ref sig .tc := ⟨.hbm, 127, rfl⟩
abbrev main_v57 : Ref sig .tc := ⟨.hbm, 128, rfl⟩
abbrev main_v58 : Ref sig .tc := ⟨.hbm, 129, rfl⟩
abbrev main_v59 : Ref sig .tc := ⟨.hbm, 130, rfl⟩
abbrev main_v60 : Ref sig .tc := ⟨.hbm, 131, rfl⟩
abbrev main_v61 : Ref sig .tc := ⟨.hbm, 132, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Spec.lean ====
/-
  The function both programs compute, written once, row by row, on the extended reals.

  One "hop" takes a row f of 64 features, a 64×64 weight table w (already transposed: entry (l, k) multiplies
  feature l into output k), and three rows b, s, o of 64 numbers:
    act k  = max (∑ l, f l · w (l, k) + b k) 0                    (linear layer, bias, relu)
    mean   = (∑ k, act k) / 64
    var    = (∑ k, (act k − mean)²) / 64 + ε
    hop j  = (act j − mean) · s j · rsqrt var + o j               (row normalisation, scale, offset)
  and the result at node i, feature j is the hop of row i of the raw features plus the hop of row i of the
  aggregated features. The three float literals (0, 64, ε) are kept as the words both programs print.
-/
import Idealize.ShloMosaic.Lib.ValueIdx
import Idealize.ShloMosaic.PureOps.Ideal

noncomputable section

open scoped BigOperators

namespace Cert.HopSpec

open Idealize.ShloMosaic Idealize.ShloMosaic.ValueIdx

/-- The f32 word of zero, of sixty-four, and of the variance's ε, read as extended reals. -/
abbrev czero : EReal := Ideal.ofBits .f32 0x00000000#32
abbrev c64 : EReal := Ideal.ofBits .f32 0x42800000#32
abbrev ceps : EReal := Ideal.ofBits .f32 0x3089705F#32

/-- The linear layer with bias and relu, on one row: output feature k. -/
def act (f : Fin 64 → EReal) (w : (⟨2, ![64, 64]⟩ : Shape).Idx → EReal) (b : Fin 64 → EReal) (k : Fin 64) : EReal :=
  max ((∑ l : Fin 64, f l * w (ix2 l k)) + b k) czero

/-- The mean of a row of 64 numbers. -/
def rowMean (h : Fin 64 → EReal) : EReal := Ideal.div (∑ k : Fin 64, h k) c64

/-- The (biased) variance of a row plus ε. -/
def rowVar (h : Fin 64 → EReal) : EReal :=
  Ideal.div (∑ k : Fin 64, (h k - rowMean h) * (h k - rowMean h)) c64 + ceps

/-- The row normalised, scaled and offset: feature j. -/
def rowNorm (h s o : Fin 64 → EReal) (j : Fin 64) : EReal :=
  (h j - rowMean h) * s j * Ideal.rsqrt (rowVar h) + o j

/-- One hop: the normalisation of the relu'd linear layer of the row. -/
def hop (f : Fin 64 → EReal) (w : (⟨2, ![64, 64]⟩ : Shape).Idx → EReal) (b s o : Fin 64 → EReal) (j : Fin 64) : EReal :=
  rowNorm (act f w b) s o j

/-- The result at node p, feature q, from the six rows given as rows: the hop of the raw features' row plus the hop of
    the aggregated features' row. -/
def GatRows (x agg : (⟨2, ![100000, 64]⟩ : Shape).Idx → EReal) (w0 w1 : (⟨2, ![64, 64]⟩ : Shape).Idx → EReal)
    (b0 s0 o0 b1 s1 o1 : Fin 64 → EReal) (p : Fin 100000) (q : Fin 64) : EReal :=
  hop (fun l => x (ix2 p l)) w0 b0 s0 o0 q + hop (fun l => agg (ix2 p l)) w1 b1 s1 o1 q

/-- The same from the six rows given as arrays of 64 numbers. -/
def Gat (x agg : (⟨2, ![100000, 64]⟩ : Shape).Idx → EReal) (w0 w1 : (⟨2, ![64, 64]⟩ : Shape).Idx → EReal)
    (b0 s0 o0 b1 s1 o1 : (⟨1, ![64]⟩ : Shape).Idx → EReal) (p : Fin 100000) (q : Fin 64) : EReal :=
  GatRows x agg w0 w1 (fun k => b0 (ix1 k)) (fun k => s0 (ix1 k)) (fun k => o0 (ix1 k))
    (fun k => b1 (ix1 k)) (fun k => s1 (ix1 k)) (fun k => o1 (ix1 k)) p q

/-- The whole result array. -/
def G (x agg : (⟨2, ![100000, 64]⟩ : Shape).Idx → EReal) (w0 w1 : (⟨2, ![64, 64]⟩ : Shape).Idx → EReal)
    (b0 s0 o0 b1 s1 o1 : (⟨1, ![64]⟩ : Shape).Idx → EReal) : (⟨2, ![100000, 64]⟩ : Shape).Idx → EReal :=
  fun i => Gat x agg w0 w1 b0 s0 o0 b1 s1 o1 (i 0) (i 1)

theorem G_ix2 (x agg : (⟨2, ![100000, 64]⟩ : Shape).Idx → EReal) (w0 w1 : (⟨2, ![64, 64]⟩ : Shape).Idx → EReal)
    (b0 s0 o0 b1 s1 o1 : (⟨1, ![64]⟩ : Shape).Idx → EReal) (p : Fin 100000) (q : Fin 64) :
    G x agg w0 w1 b0 s0 o0 b1 s1 o1 (ix2 p q) = Gat x agg w0 w1 b0 s0 o0 b1 s1 o1 p q := rfl

end Cert.HopSpec

end
-- ==== Proof.LibPlainDot.lean ====
/-
  A plain matrix product read at an index, on the extended reals.

  For the dimension numbers of an M×K by K×N product (contract the left operand's axis 1 with the
  right operand's axis 0, no batch axis), the entry (p, q) of the product is ∑ k, a[p, k] · b[k, q]:
  for the host's dot_general, for a matmul into any accumulator (plus the accumulator's entry), and
  for a matmul into the zero splat. The contraction's one-axis index is re-indexed to its coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

/-- The left operand's row coordinate is the output's row. -/
theorem plain_lhs_row (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The right operand's column coordinate is the output's column. -/
theorem plain_rhs_col (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => exact plain_lhs_row M K N (ix2 p q) _
  | ⟨1, _⟩ => exact ((DotDims.plain M K N).lhsIdx_val_of_single rfl (ix2 p q) _).trans hk

/-- The right operand's index at output (p, q) and contraction coordinate k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => exact plain_rhs_col M K N (ix2 p q) _

/-- The contraction sum of a plain product at (p, q) is the sum over the shared coordinate. -/
theorem plain_sum (a : (⟨2, ![M, K]⟩ : Shape).Idx → EReal) (b : (⟨2, ![K, N]⟩ : Shape).Idx → EReal) (p : Fin M) (q : Fin N) :
    (∑ k : (DotDims.plain M K N).contr.Idx,
        a ((DotDims.plain M K N).lhsIdx (ix2 p q) k) * b ((DotDims.plain M K N).rhsIdx (ix2 p q) k))
      = ∑ k : Fin K, a (ix2 p k) * b (ix2 k q) := by
  rw [← Equiv.sum_comp (contrEquiv1 (DotDims.plain M K N) K rfl rfl).symm]
  refine Finset.sum_congr rfl fun k _ => ?_
  rw [plain_lhsIdx, plain_rhsIdx]

/-- A matmul into the zero splat, read at (p, q). -/
theorem matmul_zero_apply {φ₁ φ₂ : FTy} (prec : Option ContractPrecision)
    (a : FVec Ideal ⟨2, ![M, K]⟩ φ₁) (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) :=
  (Ideal.matmul_constant_zero_apply (DotDims.plain M K N) prec a b (ix2 p q)).trans (plain_sum M K N a b p q)

/-- The host's dot_general, read at (p, q). -/
theorem dotGeneral_apply {φ₁ φ₂ : FTy} (prec : Option ContractPrecision) (sched : HostSchedule)
    (a : FVec Ideal ⟨2, ![M, K]⟩ φ₁) (b : FVec Ideal ⟨2, ![K, N]⟩ φ₂) (p : Fin M) (q : Fin N) :
    FloatOps.dotGeneral (DotDims.plain M K N) prec sched a b (ix2 p q) = ∑ k : Fin K, a (ix2 p k) * b (ix2 k q) :=
  (Ideal.dotGeneral_apply (DotDims.plain M K N) prec sched a b (ix2 p q)).trans (plain_sum M K N a b p q)

end Idealize.ShloMosaic.PlainDot

end
-- ==== Proof.LibKeepdims.lean ====
/-
  Small layout operations and one-axis sums of a matrix, read at an index: a vector turned into a column
  ([a] → [a, 1]), a column broadcast along its rows ([a, 1] → [a, b]), the sum of a matrix along its rows
  ([a, b] → [a], at `i` the sum over `k` of the entries `(i, k)`) and the sum of a column ([a, 1] → [1]), the two
  sums at the ideal values, where a float sum is the sum of the extended reals.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the ideal values the sum of an `[a, b]` matrix along its rows is, at `i`, the sum over `k` of the entries `(i, k)`. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  refine Finset.sum_congr rfl fun k _ => congrArg src (funext fun ax => Fin.ext ?_)
  match ax with
  | ⟨0, _⟩ => rfl
  | ⟨1, _⟩ => rfl

/-- At the ideal values the sum of an `[a, 1]` column is, at its one index, the sum over `r` of the entries `(r, 0)`. -/
theorem colSum_apply {a : ℕ} {φ : FTy} (src : FVec Ideal ⟨2, ![a, 1]⟩ φ) (acc : BitVec φ.bits)
    (h : (⟨2, ![a, 1]⟩ : Shape).Reduces [0] ⟨1, ![1]⟩) (hφ : FKind.Formats φ) (hacc : acc = FKind.add.neutral φ hφ) (u : Fin 1) :
    multiReduction .add [0] ⟨1, ![1]⟩ src acc h hφ hacc (ix1 u) = ∑ r : Fin a, src (ix2 r (0 : Fin 1)) := by
  refine (Ideal.multiReduction_add_single src acc h hφ hacc (ix1 u)).trans ?_
  refine Finset.sum_congr rfl fun r _ => congrArg src (funext fun ax => Fin.ext ?_)
  have hu : u.val = 0 := by omega
  match ax with
  | ⟨0, _⟩ => rfl
  | ⟨1, _⟩ => exact hu

end Cert.LibKeepdims

end
-- ==== Proof.LibRowTable.lean ====
/-
  Three small readings at an index, used where a block of rows is compared with a table of representatives.

  * `broadcastTo_1bc_abc_apply`: a `[1, b, c]` array spread over `a` leading copies reads, at `(i, j, k)`, the operand at
    `(0, j, k)`.
  * `biasRow_apply`: a `[1, b]` row, cast to its own shape and spread over `a` rows, reads at `(p, j)` the row at `j`.
  * `rowMin_apply`: at the ideal values the minimum of an `[a, b]` matrix along its rows is, at `i`, the fold of `min`
    from the accumulator's value over `k` of the entries `(i, k)`.
-/
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce

noncomputable section

namespace Cert.LibRowTable

open Idealize.ShloMosaic Idealize.ShloMosaic.ValueIdx

variable {α : Type}

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- A `[1, b]` row, cast to its own shape and spread over `a` rows, reads at `(p, j)` the row at `j`. -/
theorem biasRow_apply {a b : ℕ} (v : (⟨2, ![1, b]⟩ : Shape).Idx → α) (h1 : (⟨2, ![1, b]⟩ : Shape).ShapeCasts ⟨2, ![1, b]⟩)
    (h2 : (⟨2, ![1, b]⟩ : Shape).Broadcasts ⟨2, ![a, b]⟩) (p : Fin a) (j : Fin b) :
    broadcastTo ⟨2, ![a, b]⟩ (shapeCast ⟨2, ![1, b]⟩ v h1) h2 (ix2 p j) = v (ix2 (0 : Fin 1) j) := by
  rw [broadcastTo_1b_ab_apply, shapeCast_self]

/-- At the ideal values the minimum of an `[a, b]` matrix along its rows is, at `i`, the fold of `min` from the
    accumulator's value over `k` of the entries `(i, k)`. -/
theorem rowMin_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ) (i : Fin a) :
    multiReduction .minimumf [1] ⟨1, ![a]⟩ src acc h hφ hacc (ix1 i)
      = (Finset.univ : Finset (Fin b)).fold min (Ideal.ofBits φ acc) (fun k => src (ix2 i k)) := by
  rw [multiReduction_minimumf_eq_fold]
  refine (h.fold_filter_drop_single _ _ src (ix1 i)).trans ?_
  refine congrArg (fun f => (Finset.univ : Finset (Fin b)).fold min (Ideal.ofBits φ acc) f) (funext fun k => ?_)
  refine congrArg src (funext fun ax => Fin.ext ?_)
  match ax with
  | ⟨0, _⟩ => rfl
  | ⟨1, _⟩ => rfl

end Cert.LibRowTable

end
-- ==== Proof.KernelPay.lean ====
/-
  The kernel body's arithmetic, read entry by entry at the ideal values.

  The body works on a block of 5000 rows. Its two halves are the same pipeline — product with a 64×64 table into a
  zero accumulator, a bias row added, relu, then the row's mean and variance by lane sums kept as columns, and the
  normalised row scaled and offset — applied to the raw features' block and to the aggregated features' block; the
  store's value is their sum. Here the pipeline is named once (`actV`, `normV`), the two printed payloads are
  shown to be it, and it is read at (p, q): entry (p, q) depends on row p of the block only and is the
  specification's `hop` of that row.
-/
import proofs.«118061_j26740466385630_1_alg».proof.Proof.Gen.KernelIdeal.Skeleton
import proofs.«118061_j26740466385630_1_alg».proof.Proof.Spec
import proofs.«118061_j26740466385630_1_alg».proof.Proof.LibPlainDot
import proofs.«118061_j26740466385630_1_alg».proof.Proof.LibKeepdims
import proofs.«118061_j26740466385630_1_alg».proof.Proof.LibRowTable
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.KernelIdeal.Pay

open Cert.KernelIdeal Cert.KernelIdeal.Gen Idealize.ShloMosaic Idealize.ShloMosaic.ValueIdx Cert.HopSpec

section AnyF
variable {F : FTy → Type} [FloatOps F]

/-- The linear layer of a block: rows times the table, the bias row added to every row, relu. -/
def actV (x : Vec F S5000x64 .f32) (w : Vec F S64x64 .f32) (b : Vec F S1x64 .f32) : FVec F S5000x64 .f32 :=
  maximumf
    (addf
      (matmul dot_S5000x64_S64x64_S5000x64_1_0_0_1_n_n none (truncf .bf16 x bitsLt_bf16_f32)
        (truncf .bf16 (shapeCast S64x64 w shapeCasts_S64x64_S64x64) bitsLt_bf16_f32) (constant S5000x64 .f32 0x00000000#32))
      (broadcastTo S5000x64 (shapeCast S1x64 b shapeCasts_S1x64_S1x64) broadcasts_S1x64_S5000x64))
    (broadcast S5000x64 (Scalar.ofBits .f32 0x00000000#32))

/-- A block's lane sums as a column, divided by 64. -/
def meanV (h : FVec F S5000x64 .f32) : FVec F S5000x1 .f32 :=
  divf (shapeCast S5000x1 (multiReduction .add [1] S5000 h 0x00000000#32 reduces_S5000x64_S5000 (.inl rfl) rfl) shapeCasts_S5000_S5000x1)
    (broadcast S5000x1 (Scalar.ofBits .f32 0x42800000#32))

/-- Each entry minus its row's mean. -/
def devV (h : FVec F S5000x64 .f32) : FVec F S5000x64 .f32 :=
  subf h (broadcastTo S5000x64 (meanV h) broadcasts_S5000x1_S5000x64)

/-- The rows' variances plus ε, as a column. -/
def varV (h : FVec F S5000x64 .f32) : FVec F S5000x1 .f32 :=
  addf (meanV (mulf (devV h) (devV h))) (broadcast S5000x1 (Scalar.ofBits .f32 0x3089705F#32))

/-- The block normalised row by row, scaled by the row s and offset by the row o. -/
def normV (h : FVec F S5000x64 .f32) (s o : Vec F S1x64 .f32) : FVec F S5000x64 .f32 :=
  addf
    (mulf
      (mulf (devV h) (broadcastTo S5000x64 (shapeCast S1x64 s shapeCasts_S1x64_S1x64) broadcasts_S1x64_S5000x64))
      (broadcastTo S5000x64 (rsqrt (varV h)) broadcasts_S5000x1_S5000x64))
    (broadcastTo S5000x64 (shapeCast S1x64 o shapeCasts_S1x64_S1x64) broadcasts_S1x64_S5000x64)

/-- The first half's printed value is the pipeline on the raw features' block. -/
theorem pay2_eq (v0 : Vec F S5000x64 .f32) (v2 : Vec F S64x64 .f32) (v6 v27 v34 : Vec F S1x64 .f32) :
    k0_pay2 v0 v2 v6 v27 v34 = normV (actV v0 v2 v6) v27 v34 := rfl

/-- The stored value is the first half's plus the pipeline on the second block. -/
theorem pay1_eq (v37 v39 : FVec F S5000x64 .f32) (v41 : Vec F S64x64 .f32) (v45 v66 v73 : Vec F S1x64 .f32) :
    k0_pay1 v37 v39 v41 v45 v66 v73 = addf v37 (normV (actV v39 v41 v45) v66 v73) := rfl

/-- The cast of a block to its own shape is the block. -/
theorem pay3_eq (v38 : Vec F S5000x64 .f32) : k0_pay3 v38 = v38 := shapeCast_self _ _

end AnyF

/-! ## At the ideal values, entry by entry -/

theorem rsqrt_apply {s : Shape} {φ : FTy} (x : FVec Ideal s φ) (i : s.Idx) : rsqrt x i = Ideal.rsqrt (x i) := rfl

/-- The table of the product is the plain M×K by K×N one. -/
theorem dot_eq_plain : dot_S5000x64_S64x64_S5000x64_1_0_0_1_n_n = DotDims.plain 5000 64 64 := rfl

/-- Entry (p, k) of the linear layer is the specification's `act` of row p. -/
theorem actV_apply (x : Vec Ideal S5000x64 .f32) (w : Vec Ideal S64x64 .f32) (b : Vec Ideal S1x64 .f32) (p : Fin 5000) (k : Fin 64) :
    actV (F := Ideal) x w b (ix2 p k) = act (fun l => x (ix2 p l)) w (fun k => b (ix2 (0 : Fin 1) k)) k := by
  unfold actV act
  have hm := PlainDot.matmul_zero_apply 5000 64 64 none (truncf .bf16 x bitsLt_bf16_f32 : FVec Ideal S5000x64 .bf16)
    (truncf .bf16 (shapeCast S64x64 w shapeCasts_S64x64_S64x64) bitsLt_bf16_f32 : FVec Ideal S64x64 .bf16) p k
  rw [shapeCast_self] at hm
  rw [maximumf_apply, addf_apply, broadcast_apply, Cert.LibRowTable.biasRow_apply, shapeCast_self]
  exact congrArg (fun z => max (z + b (ix2 (0 : Fin 1) k)) czero) hm

/-- Entry (p, 0) of the means' column is the mean of row p. -/
theorem meanV_apply (h : FVec Ideal S5000x64 .f32) (p : Fin 5000) :
    meanV (F := Ideal) h (ix2 p (0 : Fin 1)) = rowMean (fun k => h (ix2 p k)) := by
  unfold meanV rowMean
  rw [divf_apply, broadcast_apply, Cert.LibKeepdims.shapeCast_a_a1_apply,
    Cert.LibKeepdims.rowSum_apply h 0x00000000#32 reduces_S5000x64_S5000 (.inl rfl) rfl p]
  rfl

/-- Entry (p, k) of the deviations is the entry minus the mean of row p. -/
theorem devV_apply (h : FVec Ideal S5000x64 .f32) (p : Fin 5000) (k : Fin 64) :
    devV (F := Ideal) h (ix2 p k) = h (ix2 p k) - rowMean (fun k => h (ix2 p k)) := by
  unfold devV
  rw [subf_apply, Cert.LibKeepdims.broadcastTo_a1_ab_apply, meanV_apply]

/-- Entry (p, 0) of the variances' column is the variance of row p plus ε. -/
theorem varV_apply (h : FVec Ideal S5000x64 .f32) (p : Fin 5000) :
    varV (F := Ideal) h (ix2 p (0 : Fin 1)) = rowVar (fun k => h (ix2 p k)) := by
  unfold varV rowVar
  rw [addf_apply, broadcast_apply, meanV_apply]
  show Ideal.div (∑ k : Fin 64, mulf (devV h) (devV h) (ix2 p k)) c64 + ceps
    = Ideal.div (∑ k : Fin 64, (h (ix2 p k) - rowMean (fun k => h (ix2 p k))) * (h (ix2 p k) - rowMean (fun k => h (ix2 p k)))) c64 + ceps
  refine congrArg (fun z => Ideal.div z c64 + ceps) (Finset.sum_congr rfl fun k _ => ?_)
  rw [mulf_apply, devV_apply]

/-- Entry (p, q) of the normalised block is the specification's `norm` of row p. -/
theorem normV_apply (h : FVec Ideal S5000x64 .f32) (s o : Vec Ideal S1x64 .f32) (p : Fin 5000) (q : Fin 64) :
    normV (F := Ideal) h s o (ix2 p q)
      = rowNorm (fun k => h (ix2 p k)) (fun k => s (ix2 (0 : Fin 1) k)) (fun k => o (ix2 (0 : Fin 1) k)) q := by
  unfold normV rowNorm
  rw [addf_apply, mulf_apply, mulf_apply, Cert.LibRowTable.biasRow_apply, Cert.LibRowTable.biasRow_apply,
    Cert.LibKeepdims.broadcastTo_a1_ab_apply, rsqrt_apply, varV_apply, devV_apply]

/-- The stored value at (p, q): the hop of row p of the first block plus the hop of row p of the second. -/
theorem stored_apply (x0 x1 : Vec Ideal S5000x64 .f32) (x2 x6 : Vec Ideal S64x64 .f32) (x3 x4 x5 x7 x8 x9 : Vec Ideal S1x64 .f32)
    (p : Fin 5000) (q : Fin 64) :
    k0_pay1 (F := Ideal) (k0_pay2 x0 x2 x3 x4 x5) (k0_pay3 x1) x6 x7 x8 x9 (ix2 p q)
      = hop (fun l => x0 (ix2 p l)) x2 (fun k => x3 (ix2 (0 : Fin 1) k)) (fun k => x4 (ix2 (0 : Fin 1) k)) (fun k => x5 (ix2 (0 : Fin 1) k)) q
        + hop (fun l => x1 (ix2 p l)) x6 (fun k => x7 (ix2 (0 : Fin 1) k)) (fun k => x8 (ix2 (0 : Fin 1) k)) (fun k => x9 (ix2 (0 : Fin 1) k)) q := by
  rw [pay1_eq, pay2_eq, pay3_eq, addf_apply, normV_apply, normV_apply]
  unfold hop
  refine congrArg₂ (· + ·) ?_ ?_
  · exact congrArg (fun f => rowNorm f _ _ q) (funext fun k => actV_apply x0 x2 x3 p k)
  · exact congrArg (fun f => rowNorm f _ _ q) (funext fun k => actV_apply x1 x6 x7 p k)

end Cert.KernelIdeal.Pay

end
-- ==== Proof.KernelBlocks.lean ====
/-
  The grid's blocks as index arithmetic.

  The grid has 20 points. At point t the two feature windows and the result window hold rows 5000·t … 5000·t + 4999
  (all 64 columns) of their arrays; the two tables and the six rows of 64 numbers are whole at every point. Here a
  block read through its window is the array read at the node the row stands for, for ANY contents of the array, and
  the result's 20 blocks cover its array.
-/
import proofs.«118061_j26740466385630_1_alg».proof.Proof.Gen.KernelIdeal.Points
import proofs.«118061_j26740466385630_1_alg».proof.Proof.Gen.KernelIdeal.Launch
import Idealize.ShloMosaic.Lib.Pipeline.Value
import Idealize.ShloMosaic.Lib.ValueIdx

noncomputable section

namespace Cert.KernelIdeal.KBlocks

open Cert.KernelIdeal Cert.KernelIdeal.Gen Idealize.ShloMosaic Idealize.ShloMosaic.TcCoe Idealize.SL.Sem
open Idealize.ShloMosaic.ValueIdx

theorem hz : (![0, 0] : Fin 2 → Nat) = fun _ => 0 := funext fun a => by fin_cases a <;> rfl

/-- The printed index maps over the grid: the two feature windows and the result window are at block (t, 0); the
    tables and the rows at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_10.index t (0 : Fin 2) = t.val ∧ win0_10.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

theorem t_lt (t : Fin cfg0.N) : t.val < 20 := by
  have h := t.isLt
  have hN : cfg0.N = 20 := N_0
  omega

/-- The node a block's row is. -/
def node (t : Fin cfg0.N) (p : Fin 5000) : Fin 100000 := ⟨t.val * 5000 + p.val, by have := t_lt t; have := p.isLt; omega⟩

/-! ## A block read through its window, for any contents of the array -/

theorem read0 (t : Fin cfg0.N) (A : S100000x64.Idx → EReal) (p : Fin 5000) (l : Fin 64) :
    ((cfg0.win 0).blk t).view.read (Elt Ideal) A (ix2 p l) = A (ix2 (node t p) l) := by
  show A (((cfg0.win 0).blk t).view.emb (ix2 p l)) = _
  refine congrArg A (funext fun a => Fin.ext ?_)
  obtain ⟨e0, e1, -⟩ := idx_facts t
  match a with
  | ⟨0, _⟩ => show win0_0.index t (0 : Fin 2) * 5000 + 1 * p.val = t.val * 5000 + p.val; omega
  | ⟨1, _⟩ => show win0_0.index t (1 : Fin 2) * 64 + 1 * l.val = l.val; omega

theorem read1 (t : Fin cfg0.N) (A : S100000x64.Idx → EReal) (p : Fin 5000) (l : Fin 64) :
    ((cfg0.win 1).blk t).view.read (Elt Ideal) A (ix2 p l) = A (ix2 (node t p) l) := by
  show A (((cfg0.win 1).blk t).view.emb (ix2 p l)) = _
  refine congrArg A (funext fun a => Fin.ext ?_)
  obtain ⟨-, -, e0, e1, -⟩ := idx_facts t
  match a with
  | ⟨0, _⟩ => show win0_1.index t (0 : Fin 2) * 5000 + 1 * p.val = t.val * 5000 + p.val; omega
  | ⟨1, _⟩ => show win0_1.index t (1 : Fin 2) * 64 + 1 * l.val = l.val; omega

theorem emb10 (t : Fin cfg0.N) (p : Fin 5000) (q : Fin 64) :
    ((cfg0.win 10).blk t).view.emb (ix2 p q) = ix2 (node t p) q := by
  refine funext fun a => Fin.ext ?_
  obtain ⟨-, -, -, -, e0, e1, -⟩ := idx_facts t
  match a with
  | ⟨0, _⟩ => show win0_10.index t (0 : Fin 2) * 5000 + 1 * p.val = t.val * 5000 + p.val; omega
  | ⟨1, _⟩ => show win0_10.index t (1 : Fin 2) * 64 + 1 * q.val = q.val; omega

theorem read2 (t : Fin cfg0.N) (A : S64x64.Idx → EReal) : ((cfg0.win 2).blk t).view.read (Elt Ideal) A = A := by
  funext y
  show A (((cfg0.win 2).blk t).view.emb y) = A y
  refine congrArg A (funext fun a => Fin.ext ?_)
  obtain ⟨-, -, -, -, -, -, e0, e1, -⟩ := idx_facts t
  match a with
  | ⟨0, _⟩ => show win0_2.index t (0 : Fin 2) * 64 + 1 * (y 0).val = (y 0).val; omega
  | ⟨1, _⟩ => show win0_2.index t (1 : Fin 2) * 64 + 1 * (y 1).val = (y 1).val; omega

theorem read6 (t : Fin cfg0.N) (A : S64x64.Idx → EReal) : ((cfg0.win 6).blk t).view.read (Elt Ideal) A = A := by
  funext y
  show A (((cfg0.win 6).blk t).view.emb y) = A y
  refine congrArg A (funext fun a => Fin.ext ?_)
  obtain ⟨-, -, -, -, -, -, -, -, -, -, -, -, -, -, e0, e1, -⟩ := idx_facts t
  match a with
  | ⟨0, _⟩ => show win0_6.index t (0 : Fin 2) * 64 + 1 * (y 0).val = (y 0).val; omega
  | ⟨1, _⟩ => show win0_6.index t (1 : Fin 2) * 64 + 1 * (y 1).val = (y 1).val; omega

theorem read3 (t : Fin cfg0.N) (A : S1x64.Idx → EReal) (k : Fin 64) :
    ((cfg0.win 3).blk t).view.read (Elt Ideal) A (ix2 (0 : Fin 1) k) = A (ix2 (0 : Fin 1) k) := by
  show A (((cfg0.win 3).blk t).view.emb (ix2 (0 : Fin 1) k)) = _
  refine congrArg A (funext fun a => Fin.ext ?_)
  obtain ⟨-, -, -, -, -, -, -, -, e0, e1, -⟩ := idx_facts t
  match a with
  | ⟨0, _⟩ => show win0_3.index t (0 : Fin 2) * 1 + 1 * 0 = 0; omega
  | ⟨1, _⟩ => show win0_3.index t (1 : Fin 2) * 64 + 1 * k.val = k.val; omega

theorem read4 (t : Fin cfg0.N) (A : S1x64.Idx → EReal) (k : Fin 64) :
    ((cfg0.win 4).blk t).view.read (Elt Ideal) A (ix2 (0 : Fin 1) k) = A (ix2 (0 : Fin 1) k) := by
  show A (((cfg0.win 4).blk t).view.emb (ix2 (0 : Fin 1) k)) = _
  refine congrArg A (funext fun a => Fin.ext ?_)
  obtain ⟨-, -, -, -, -, -, -, -, -, -, e0, e1, -⟩ := idx_facts t
  match a with
  | ⟨0, _⟩ => show win0_4.index t (0 : Fin 2) * 1 + 1 * 0 = 0; omega
  | ⟨1, _⟩ => show win0_4.index t (1 : Fin 2) * 64 + 1 * k.val = k.val; omega

theorem read5 (t : Fin cfg0.N) (A : S1x64.Idx → EReal) (k : Fin 64) :
    ((cfg0.win 5).blk t).view.read (Elt Ideal) A (ix2 (0 : Fin 1) k) = A (ix2 (0 : Fin 1) k) := by
  show A (((cfg0.win 5).blk t).view.emb (ix2 (0 : Fin 1) k)) = _
  refine congrArg A (funext fun a => Fin.ext ?_)
  obtain ⟨-, -, -, -, -, -, -, -, -, -, -, -, e0, e1, -⟩ := idx_facts t
  match a with
  | ⟨0, _⟩ => show win0_5.index t (0 : Fin 2) * 1 + 1 * 0 = 0; omega
  | ⟨1, _⟩ => show win0_5.index t (1 : Fin 2) * 64 + 1 * k.val = k.val; omega

theorem read7 (t : Fin cfg0.N) (A : S1x64.Idx → EReal) (k : Fin 64) :
    ((cfg0.win 7).blk t).view.read (Elt Ideal) A (ix2 (0 : Fin 1) k) = A (ix2 (0 : Fin 1) k) := by
  show A (((cfg0.win 7).blk t).view.emb (ix2 (0 : Fin 1) k)) = _
  refine congrArg A (funext fun a => Fin.ext ?_)
  obtain ⟨-, -, -, -, -, -, -, -, -, -, -, -, -, -, -, -, e0, e1, -⟩ := idx_facts t
  match a with
  | ⟨0, _⟩ => show win0_7.index t (0 : Fin 2) * 1 + 1 * 0 = 0; omega
  | ⟨1, _⟩ => show win0_7.index t (1 : Fin 2) * 64 + 1 * k.val = k.val; omega

theorem read8 (t : Fin cfg0.N) (A : S1x64.Idx → EReal) (k : Fin 64) :
    ((cfg0.win 8).blk t).view.read (Elt Ideal) A (ix2 (0 : Fin 1) k) = A (ix2 (0 : Fin 1) k) := by
  show A (((cfg0.win 8).blk t).view.emb (ix2 (0 : Fin 1) k)) = _
  refine congrArg A (funext fun a => Fin.ext ?_)
  obtain ⟨-, -, -, -, -, -, -, -, -, -, -, -, -, -, -, -, -, -, e0, e1, -⟩ := idx_facts t
  match a with
  | ⟨0, _⟩ => show win0_8.index t (0 : Fin 2) * 1 + 1 * 0 = 0; omega
  | ⟨1, _⟩ => show win0_8.index t (1 : Fin 2) * 64 + 1 * k.val = k.val; omega

theorem read9 (t : Fin cfg0.N) (A : S1x64.Idx → EReal) (k : Fin 64) :
    ((cfg0.win 9).blk t).view.read (Elt Ideal) A (ix2 (0 : Fin 1) k) = A (ix2 (0 : Fin 1) k) := by
  show A (((cfg0.win 9).blk t).view.emb (ix2 (0 : Fin 1) k)) = _
  refine congrArg A (funext fun a => Fin.ext ?_)
  obtain ⟨-, -, -, -, -, -, -, -, -, -, -, -, -, -, -, -, -, -, -, -, e0, e1⟩ := idx_facts t
  match a with
  | ⟨0, _⟩ => show win0_9.index t (0 : Fin 2) * 1 + 1 * 0 = 0; omega
  | ⟨1, _⟩ => show win0_9.index t (1 : Fin 2) * 64 + 1 * k.val = k.val; omega

/-! ## The result's blocks cover its array -/

theorem mem_blk (t : Fin cfg0.N) (i : S100000x64.Idx) :
    i ∈ ((cfg0.win 10).blk t).view.set ↔ ∀ a : Fin 2, win0_10.index t a * S5000x64.size a ≤ (i a).val ∧ (i a).val < win0_10.index t a * S5000x64.size a + S5000x64.size a := by
  show i ∈ ((View.whole main_v21).slice (win0_10.rect t)).set ↔ _
  rw [View.set_slice_whole, Rect.mem_set_unit]
  exact Iff.rfl

/-- Every index of the result array is in the block of the point its row falls in. -/
theorem cover (i : S100000x64.Idx) : ∃ t : Fin cfg0.N, (cfg0.win 10).flush t = true ∧ i ∈ ((cfg0.win 10).blk t).view.set := by
  have hi0 : (i 0).val < 100000 := (i 0).isLt
  have hi1 : (i 1).val < 64 := (i 1).isLt
  have hN : cfg0.N = 20 := N_0
  let t : Fin cfg0.N := ⟨(i 0).val / 5000, by omega⟩
  refine ⟨t, flush0_10 t, ?_⟩
  rw [mem_blk]
  obtain ⟨-, -, -, -, e0, e1, -⟩ := idx_facts t
  have ht : t.val = (i 0).val / 5000 := rfl
  intro a
  match a with
  | ⟨0, _⟩ => show win0_10.index t (0 : Fin 2) * 5000 ≤ (i 0).val ∧ (i 0).val < win0_10.index t (0 : Fin 2) * 5000 + 5000; omega
  | ⟨1, _⟩ => show win0_10.index t (1 : Fin 2) * 64 ≤ (i 1).val ∧ (i 1).val < win0_10.index t (1 : Fin 2) * 64 + 64; omega

end Cert.KernelIdeal.KBlocks

end
-- ==== Proof.KernelHost.lean ====
/-
  What the kernel's program has computed on the host when its one region is entered.

  Before the region the program aggregates the features over the edges (the same gather, product and scatter-add the
  reference makes), transposes the two weight tables and recasts the six rows of 64 numbers as 1×64 arrays. Each of
  those buffers is read here as a function of the argument arrays.
-/
import proofs.«118061_j26740466385630_1_alg».proof.Proof.Gen.KernelIdeal.Launch
import Idealize.ShloMosaic.Lib.StableHlo.Run

noncomputable section

namespace Cert.KernelIdeal.KHost

open Cert.KernelIdeal Cert.KernelIdeal.Gen Idealize.ShloMosaic Idealize.ShloMosaic.TcCoe Idealize.SL.Sem Idealize.ShloMosaic.StableHlo

variable {F : FTy → Type} [FloatOps F]

local notation "ct(" s ", " e ")" => BufTy.Contents (Elt F) (BufTy.mk s e)

/-- The aggregated features: for every edge the source row times the edge's value, summed into the edge's target row. -/
def aggK (x : ct(S100000x64, .f32)) (ev : ct(S1600000, .f32)) (er ec : ct(S1600000, .i32)) : ct(S100000x64, .f32) :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 er)
    (mulf (broadcastInDim S1600000x64 ![0, 1] bcast_S1600000x1_S1600000x64_0_1 (broadcastInDim S1600000x1 ![0] bcast_S1600000_S1600000x1_0 ev))
      (Host.gather gather_S100000x64_S1600000x1_S1600000x64_1_0_n_n_0_1_164 x
        (broadcastInDim S1600000x1 ![0] bcast_S1600000_S1600000x1_0
          (select (cmpi .slt ec (broadcastInDim S1600000 ![] bcast_S_S1600000 (constantI S_ 32 0#32)))
            (addi ec (broadcastInDim S1600000 ![] bcast_S_S1600000 (constantI S_ 32 100000#32))) ec))))

variable (W : Valuation τ sig (Elt F))

theorem host_v12 : after hostOps0 W (main_v12 : DevRef τ sig)
    = aggK (W (main_arg0 : DevRef τ sig)) (W (main_arg1 : DevRef τ sig)) (W (main_arg10 : DevRef τ sig)) (W (main_arg11 : DevRef τ sig)) := by
  after_results_simp
  rfl

theorem host_v13 : after hostOps0 W (main_v13 : DevRef τ sig)
    = transpose S64x64 [1, 0] (W (main_arg2 : DevRef τ sig)) transposes_S64x64_S64x64_1_0 := by
  after_results_simp

theorem host_v14 : after hostOps0 W (main_v14 : DevRef τ sig)
    = transpose S64x64 [1, 0] (W (main_arg6 : DevRef τ sig)) transposes_S64x64_S64x64_1_0 := by
  after_results_simp

theorem host_v15 : after hostOps0 W (main_v15 : DevRef τ sig)
    = shapeCast S1x64 (W (main_arg3 : DevRef τ sig)) shapeCasts_S64_S1x64 := by
  after_results_simp
  rfl

theorem host_v16 : after hostOps0 W (main_v16 : DevRef τ sig)
    = shapeCast S1x64 (W (main_arg4 : DevRef τ sig)) shapeCasts_S64_S1x64 := by
  after_results_simp
  rfl

theorem host_v17 : after hostOps0 W (main_v17 : DevRef τ sig)
    = shapeCast S1x64 (W (main_arg5 : DevRef τ sig)) shapeCasts_S64_S1x64 := by
  after_results_simp
  rfl

theorem host_v18 : after hostOps0 W (main_v18 : DevRef τ sig)
    = shapeCast S1x64 (W (main_arg7 : DevRef τ sig)) shapeCasts_S64_S1x64 := by
  after_results_simp
  rfl

theorem host_v19 : after hostOps0 W (main_v19 : DevRef τ sig)
    = shapeCast S1x64 (W (main_arg8 : DevRef τ sig)) shapeCasts_S64_S1x64 := by
  after_results_simp
  rfl

theorem host_v20 : after hostOps0 W (main_v20 : DevRef τ sig)
    = shapeCast S1x64 (W (main_arg9 : DevRef τ sig)) shapeCasts_S64_S1x64 := by
  after_results_simp
  rfl

end Cert.KernelIdeal.KHost

end
-- ==== Proof.KernelArrays.lean ====
/-
  The arrays the kernel's region finds, as functions of the launch memory: the aggregated features, the two
  transposed tables, and the six rows of 64 numbers recast as 1×64 arrays (read back at (0, k) as the row's entry k).
-/
import proofs.«118061_j26740466385630_1_alg».proof.Proof.Gen.KernelIdeal.Frame
import proofs.«118061_j26740466385630_1_alg».proof.Proof.KernelHost
import Idealize.ShloMosaic.Lib.Pipeline.Value
import Idealize.ShloMosaic.Lib.ValueIdx

noncomputable section

namespace Cert.KernelIdeal.KArrays

open Cert.KernelIdeal Cert.KernelIdeal.Gen Idealize.ShloMosaic Idealize.ShloMosaic.TcCoe Idealize.SL.Sem
open Idealize.ShloMosaic.ValueIdx Cert.KernelIdeal.KHost

variable {F : FTy → Type} [FloatOps F]
variable (m : (ℓ : Loc nD τ sig) → Buf (Elt F) ℓ)

theorem V_v12 (c : Dev nD) : V m c main_v12
    = aggK (m ((c : Thread nD τ).loc main_arg0)) (m ((c : Thread nD τ).loc main_arg1)) (m ((c : Thread nD τ).loc main_arg10)) (m ((c : Thread nD τ).loc main_arg11)) :=
  host_v12 (fun b => m (c, b))
theorem V_v13 (c : Dev nD) : V m c main_v13 = transpose S64x64 [1, 0] (m ((c : Thread nD τ).loc main_arg2)) transposes_S64x64_S64x64_1_0 :=
  host_v13 (fun b => m (c, b))
theorem V_v14 (c : Dev nD) : V m c main_v14 = transpose S64x64 [1, 0] (m ((c : Thread nD τ).loc main_arg6)) transposes_S64x64_S64x64_1_0 :=
  host_v14 (fun b => m (c, b))
theorem V_v15 (c : Dev nD) : V m c main_v15 = shapeCast S1x64 (m ((c : Thread nD τ).loc main_arg3)) shapeCasts_S64_S1x64 := host_v15 (fun b => m (c, b))
theorem V_v16 (c : Dev nD) : V m c main_v16 = shapeCast S1x64 (m ((c : Thread nD τ).loc main_arg4)) shapeCasts_S64_S1x64 := host_v16 (fun b => m (c, b))
theorem V_v17 (c : Dev nD) : V m c main_v17 = shapeCast S1x64 (m ((c : Thread nD τ).loc main_arg5)) shapeCasts_S64_S1x64 := host_v17 (fun b => m (c, b))
theorem V_v18 (c : Dev nD) : V m c main_v18 = shapeCast S1x64 (m ((c : Thread nD τ).loc main_arg7)) shapeCasts_S64_S1x64 := host_v18 (fun b => m (c, b))
theorem V_v19 (c : Dev nD) : V m c main_v19 = shapeCast S1x64 (m ((c : Thread nD τ).loc main_arg8)) shapeCasts_S64_S1x64 := host_v19 (fun b => m (c, b))
theorem V_v20 (c : Dev nD) : V m c main_v20 = shapeCast S1x64 (m ((c : Thread nD τ).loc main_arg9)) shapeCasts_S64_S1x64 := host_v20 (fun b => m (c, b))

/-- A vector of 64 numbers recast as a 1×64 array reads, at (0, k), the vector at k. -/
theorem row_apply {α : Type} (v : S64.Idx → α) (k : Fin 64) :
    shapeCast S1x64 v shapeCasts_S64_S1x64 (ix2 (0 : Fin 1) k) = v (ix1 k) :=
  shapeCast_apply v shapeCasts_S64_S1x64 _ _ (by
    rw [Shape.rowMajor_val_two, Shape.rowMajor_val_one]
    show k.val = 0 * 64 + k.val
    omega)

end Cert.KernelIdeal.KArrays

end
-- ==== Proof.KernelValue.lean ====
/-
  The kernel's result array as one function of the argument arrays.

  Point t works on rows 5000·t … 5000·t + 4999 of the raw and of the aggregated features (the two tables and the
  six rows are the same at every point) and writes those rows of the result. Entry (p, q) of what point t writes
  is the specification's value at node 5000·t + p, feature q; the 20 blocks cover the array; so the array ends as
  the specification's function of the arguments.
-/
import proofs.«118061_j26740466385630_1_alg».proof.Proof.Gen.KernelIdeal.Value
import proofs.«118061_j26740466385630_1_alg».proof.Proof.KernelPay
import proofs.«118061_j26740466385630_1_alg».proof.Proof.KernelBlocks
import proofs.«118061_j26740466385630_1_alg».proof.Proof.KernelArrays
import Idealize.ShloMosaic.Lib.Pipeline.Value
import Idealize.ShloMosaic.Lib.ValueIdx

noncomputable section

namespace Cert.KernelIdeal.KValue

open Cert.KernelIdeal Cert.KernelIdeal.Gen Idealize.ShloMosaic Idealize.ShloMosaic.TcCoe Idealize.SL.Sem
open Idealize.ShloMosaic.ValueIdx Cert.HopSpec Cert.KernelIdeal.KHost Cert.KernelIdeal.KBlocks Cert.KernelIdeal.KArrays
open Idealize.ShloMosaic.Pipeline (Dat)

/-- A hop depends on its row, table and three rows only through their entries. -/
theorem hop_congr {f f' : Fin 64 → EReal} {w w' : S64x64.Idx → EReal} {b b' s s' o o' : Fin 64 → EReal}
    (hf : ∀ l, f l = f' l) (hw : w = w') (hb : ∀ k, b k = b' k) (hs : ∀ k, s k = s' k) (ho : ∀ k, o k = o' k) (q : Fin 64) :
    hop f w b s o q = hop f' w' b' s' o' q := by
  rw [funext hf, hw, funext hb, funext hs, funext ho]

/-- What the body stores at (p, q) from the blocks of ANY ten arrays at point t: the specification's value at the
    node the row stands for, of those arrays. -/
theorem stored_blocks (t : Fin cfg0.N) (A0 A1 : S100000x64.Idx → EReal) (W0 W1 : S64x64.Idx → EReal)
    (R3 R4 R5 R7 R8 R9 : S1x64.Idx → EReal) (p : Fin 5000) (q : Fin 64) :
    k0_pay1 (F := Ideal)
        (k0_pay2 (((cfg0.win 0).blk t).view.read (Elt Ideal) A0) (((cfg0.win 2).blk t).view.read (Elt Ideal) W0)
          (((cfg0.win 3).blk t).view.read (Elt Ideal) R3) (((cfg0.win 4).blk t).view.read (Elt Ideal) R4)
          (((cfg0.win 5).blk t).view.read (Elt Ideal) R5))
        (k0_pay3 (((cfg0.win 1).blk t).view.read (Elt Ideal) A1))
        (((cfg0.win 6).blk t).view.read (Elt Ideal) W1) (((cfg0.win 7).blk t).view.read (Elt Ideal) R7)
        (((cfg0.win 8).blk t).view.read (Elt Ideal) R8) (((cfg0.win 9).blk t).view.read (Elt Ideal) R9) (ix2 p q)
      = GatRows A0 A1 W0 W1 (fun k => R3 (ix2 (0 : Fin 1) k)) (fun k => R4 (ix2 (0 : Fin 1) k)) (fun k => R5 (ix2 (0 : Fin 1) k))
          (fun k => R7 (ix2 (0 : Fin 1) k)) (fun k => R8 (ix2 (0 : Fin 1) k)) (fun k => R9 (ix2 (0 : Fin 1) k)) (node t p) q := by
  refine (Pay.stored_apply (((cfg0.win 0).blk t).view.read (Elt Ideal) A0) (((cfg0.win 1).blk t).view.read (Elt Ideal) A1)
    (((cfg0.win 2).blk t).view.read (Elt Ideal) W0) (((cfg0.win 6).blk t).view.read (Elt Ideal) W1)
    (((cfg0.win 3).blk t).view.read (Elt Ideal) R3) (((cfg0.win 4).blk t).view.read (Elt Ideal) R4)
    (((cfg0.win 5).blk t).view.read (Elt Ideal) R5) (((cfg0.win 7).blk t).view.read (Elt Ideal) R7)
    (((cfg0.win 8).blk t).view.read (Elt Ideal) R8) (((cfg0.win 9).blk t).view.read (Elt Ideal) R9) p q).trans ?_
  exact congrArg₂ (· + ·)
    (hop_congr (fun l => read0 t A0 p l) (read2 t W0) (fun k => read3 t R3 k) (fun k => read4 t R4 k) (fun k => read5 t R5 k) q)
    (hop_congr (fun l => read1 t A1 p l) (read6 t W1) (fun k => read7 t R7 k) (fun k => read8 t R8 k) (fun k => read9 t R9 k) q)

variable (m : (ℓ : Loc nD τ sig) → Buf (Elt Ideal) ℓ) (ρ : Dev nD → PrngReg)

/-- The kernel's result as a function of the launch memory. -/
def GK (c : Dev nD) : S100000x64.Idx → EReal :=
  G (m ((c : Thread nD τ).loc main_arg0))
    (aggK (m ((c : Thread nD τ).loc main_arg0)) (m ((c : Thread nD τ).loc main_arg1)) (m ((c : Thread nD τ).loc main_arg10)) (m ((c : Thread nD τ).loc main_arg11)))
    (transpose S64x64 [1, 0] (m ((c : Thread nD τ).loc main_arg2)) transposes_S64x64_S64x64_1_0)
    (transpose S64x64 [1, 0] (m ((c : Thread nD τ).loc main_arg6)) transposes_S64x64_S64x64_1_0)
    (m ((c : Thread nD τ).loc main_arg3)) (m ((c : Thread nD τ).loc main_arg4)) (m ((c : Thread nD τ).loc main_arg5))
    (m ((c : Thread nD τ).loc main_arg7)) (m ((c : Thread nD τ).loc main_arg8)) (m ((c : Thread nD τ).loc main_arg9))

/-- What point t writes back is block t of the specification's function of the arguments. -/
theorem flushed_eq (c : Dev nD) (t : Fin cfg0.N) :
    (dats m 0 c).flushed 10 t = ((cfg0.win 10).blk t).view.read (Elt Ideal) (GK m c) := by
  rw [Value.flushed10]
  unfold out0_10
  rw [View.canon_unit_zero hz]
  simp only [View.ld_unit_zero (S := S5000x64) hz, View.ld_unit_zero (S := S64x64) hz, View.ld_unit_zero (S := S1x64) hz]
  funext j
  revert j
  intro (j : S5000x64.Idx)
  obtain ⟨p, q, rfl⟩ : ∃ (p : Fin 5000) (q : Fin 64), j = ix2 p q := ⟨j 0, j 1, eq_ix2 j⟩
  show k0_pay1 (k0_pay2 (iblk m c 0 t) (iblk m c 2 t) (iblk m c 3 t) (iblk m c 4 t) (iblk m c 5 t)) (k0_pay3 (iblk m c 1 t))
      (iblk m c 6 t) (iblk m c 7 t) (iblk m c 8 t) (iblk m c 9 t) (ix2 p q)
    = GK m c (((cfg0.win 10).blk t).view.emb (ix2 p q))
  refine (stored_blocks t (V m c main_arg0) (V m c main_v12) (V m c main_v13) (V m c main_v14) (V m c main_v15) (V m c main_v16)
    (V m c main_v17) (V m c main_v18) (V m c main_v19) (V m c main_v20) p q).trans ?_
  rw [emb10]
  unfold GK
  rw [G_ix2]
  unfold Gat
  rw [V_main_arg0, V_v12, V_v13, V_v14, V_v15, V_v16, V_v17, V_v18, V_v19, V_v20]
  simp only [row_apply]

/-- The result array after the run. -/
theorem final (c : Dev nD) : (dats m 0 c).arrAt 10 cfg0.N = GK m c :=
  (dats m 0 c).arrAt_eq_of_cover 10 (GK m c) (fun t _ => flushed_eq m c t) cover

/-- The kernel's run: the result array at the specification's function of the arguments, the arguments unchanged. -/
theorem run : θ_run defs (onTc (τ := τ) (main (F := Ideal))) ⟨m, fun _ => 0, ρ⟩ fun r => ∀ c : Dev nD,
      r.2.mem ((c : Thread nD τ).loc main_v21) = GK m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final m c), (h c).2⟩) (Value.run_blocks m ρ)

end Cert.KernelIdeal.KValue

end
-- ==== Proof.RefDefs.lean ====
/-
  The reference's computation as one composed function of its argument arrays, stage by stage on whole arrays: the
  sparse aggregation, the linear layer with relu, the rows' means and variances kept as columns (the variance as
  jnp.var's own body writes it), the scaled and offset normalisation, and the sum of the two hops.
-/
import proofs.«118061_j26740466385630_1_alg».proof.Proof.Gen.ReferenceIdeal

noncomputable section

namespace Cert.ReferenceIdeal.RefRun

open Cert.ReferenceIdeal Cert.ReferenceIdeal.Gen Idealize.ShloMosaic

variable {F : FTy → Type} [FloatOps F]

local notation "ct(" s ", " e ")" => BufTy.Contents (Elt F) (BufTy.mk s e)

/-! ## The composed function -/

/-- The aggregated features: for every edge the source row times the edge's value, summed into the edge's target row.
    (A negative source number is first wrapped by the number of nodes, as jnp indexing does.) -/
def aggR (x : ct(S100000x64, .f32)) (ev : ct(S1600000, .f32)) (er ec : ct(S1600000, .i32)) : ct(S100000x64, .f32) :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 er)
    (mulf (broadcastInDim S1600000x64 ![0, 1] bcast_S1600000x1_S1600000x64_0_1 (broadcastInDim S1600000x1 ![0] bcast_S1600000_S1600000x1_0 ev))
      (Host.gather gather_S100000x64_S1600000x1_S1600000x64_1_0_n_n_0_1_164 x
        (broadcastInDim S1600000x1 ![0] bcast_S1600000_S1600000x1_0
          (select (cmpi .slt ec (broadcastInDim S1600000 ![] bcast_S_S1600000 (constantI S_ 32 0#32)))
            (addi ec (broadcastInDim S1600000 ![] bcast_S_S1600000 (constantI S_ 32 100000#32))) ec))))

/-- The linear layer: rows times the (already transposed) table, the bias added to every row, relu. -/
def actR (feat : ct(S100000x64, .f32)) (wt : ct(S64x64, .f32)) (b : ct(S64, .f32)) : ct(S100000x64, .f32) :=
  maximumf
    (addf (Host.dotGeneral dot_S100000x64_S64x64_S100000x64_1_0_0_1_n_n none feat wt)
      (broadcastInDim S100000x64 ![0, 1] bcast_S1x64_S100000x64_0_1 (broadcastInDim S1x64 ![1] bcast_S64_S1x64_1 b)))
    (broadcastInDim S100000x64 ![] bcast_S_S100000x64 (constant S_ .f32 0x00000000#32))

/-- The rows' means as a column. -/
def meanR (h : ct(S100000x64, .f32)) : ct(S100000x1, .f32) :=
  Host.divf
    (broadcastInDim S100000x1 ![0] bcast_S100000_S100000x1_0
      (Host.reduceAdd h (constant S_ .f32 0x00000000#32) reducesTo_S100000x64_S100000_d1 h_S_))
    (broadcastInDim S100000x1 ![] bcast_S_S100000x1 (constant S_ .f32 0x42800000#32))

/-- Each entry minus its row's mean. -/
def devR (h : ct(S100000x64, .f32)) : ct(S100000x64, .f32) :=
  subf h (broadcastInDim S100000x64 ![0, 1] bcast_S100000x1_S100000x64_0_1 (meanR h))

/-- The variance's divisor: sixty-four minus the (zero) correction, converted from an integer. -/
def nR : ct(S_, .f32) := subf (constant S_ .f32 0x42800000#32) (sitofp .f32 (constantI S_ 32 0#32))

/-- The rows' variances as a column: the squared deviations' sums over the divisor where the divisor is positive. -/
def varR (h : ct(S100000x64, .f32)) : ct(S100000x1, .f32) :=
  select (broadcastInDim S100000x1 ![] bcast_S_S100000x1 (cmpf .ogt (nR (F := F)) (constant S_ .f32 0x00000000#32)))
    (Host.divf
      (broadcastInDim S100000x1 ![0] bcast_S100000_S100000x1_0
        (Host.reduceAdd (mulf (devR h) (devR h)) (constant S_ .f32 0x00000000#32) reducesTo_S100000x64_S100000_d1 h_S_))
      (broadcastInDim S100000x1 ![] bcast_S_S100000x1 (nR (F := F))))
    (broadcastInDim S100000x1 ![] bcast_S_S100000x1 (id (constant S_ .f32 0x7FC00000#32)))

/-- The rows normalised, scaled by the row s and offset by the row o. -/
def normR (h : ct(S100000x64, .f32)) (s o : ct(S64, .f32)) : ct(S100000x64, .f32) :=
  addf
    (mulf
      (mulf (devR h) (broadcastInDim S100000x64 ![0, 1] bcast_S1x64_S100000x64_0_1 (broadcastInDim S1x64 ![1] bcast_S64_S1x64_1 s)))
      (broadcastInDim S100000x64 ![0, 1] bcast_S100000x1_S100000x64_0_1
        (Host.rsqrt (addf (varR h) (broadcastInDim S100000x1 ![] bcast_S_S100000x1 (constant S_ .f32 0x3089705F#32))))))
    (broadcastInDim S100000x64 ![0, 1] bcast_S1x64_S100000x64_0_1 (broadcastInDim S1x64 ![1] bcast_S64_S1x64_1 o))

/-- The reference's result as one function of its twelve arguments. -/
def outR (x : ct(S100000x64, .f32)) (ev : ct(S1600000, .f32)) (w0 : ct(S64x64, .f32)) (b0 s0 o0 : ct(S64, .f32))
    (w1 : ct(S64x64, .f32)) (b1 s1 o1 : ct(S64, .f32)) (er ec : ct(S1600000, .i32)) : ct(S100000x64, .f32) :=
  addf (normR (actR x (transpose S64x64 [1, 0] w0 transposes_S64x64_S64x64_1_0) b0) s0 o0)
    (normR (actR (aggR x ev er ec) (transpose S64x64 [1, 0] w1 transposes_S64x64_S64x64_1_0) b1) s1 o1)

end Cert.ReferenceIdeal.RefRun

end
-- ==== Proof.RefRun.lean ====
/-
  The reference's run, read back.

  The reference is a straight line of host operations: the sparse aggregation, then two hops, added. Here its
  operations are listed in order with the three small outlined functions' bodies (relu, jnp.var, jnp.where) at their
  call sites, the program is shown to be the list run in order, and the result buffer's contents after the run are
  shown to be the composed function `outR` of the argument arrays.
-/
import proofs.«118061_j26740466385630_1_alg».proof.Proof.RefDefs
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

local notation "ct(" s ", " e ")" => BufTy.Contents (Elt F) (BufTy.mk s e)

/-! ## The operations, in order -/

set_option quotPrecheck false

local notation "zeroS" => (constant S_ .f32 0x00000000#32 : ct(S_, .f32))
local notation "c64S" => (constant S_ .f32 0x42800000#32 : ct(S_, .f32))
local notation "rowSum" => ((fun x v => Host.reduceAdd x v reducesTo_S100000x64_S100000_d1 h_S_) : ct(S100000x64, .f32) → ct(S_, .f32) → ct(S100000, .f32))
local notation "toCol" => (broadcastInDim S100000x1 ![0] bcast_S100000_S100000x1_0 : ct(S100000, .f32) → ct(S100000x1, .f32))
local notation "splatCol" => (broadcastInDim S100000x1 ![] bcast_S_S100000x1 : ct(S_, .f32) → ct(S100000x1, .f32))
local notation "splatMat" => (broadcastInDim S100000x64 ![] bcast_S_S100000x64 : ct(S_, .f32) → ct(S100000x64, .f32))
local notation "colToMat" => (broadcastInDim S100000x64 ![0, 1] bcast_S100000x1_S100000x64_0_1 : ct(S100000x1, .f32) → ct(S100000x64, .f32))
local notation "vecToRow" => (broadcastInDim S1x64 ![1] bcast_S64_S1x64_1 : ct(S64, .f32) → ct(S1x64, .f32))
local notation "rowToMat" => (broadcastInDim S100000x64 ![0, 1] bcast_S1x64_S100000x64_0_1 : ct(S1x64, .f32) → ct(S100000x64, .f32))
local notation "matOp" f => (f : ct(S100000x64, .f32) → ct(S100000x64, .f32) → ct(S100000x64, .f32))
local notation "colOp" f => (f : ct(S100000x1, .f32) → ct(S100000x1, .f32) → ct(S100000x1, .f32))
local notation "transp" => ((transpose S64x64 [1, 0] · transposes_S64x64_S64x64_1_0) : ct(S64x64, .f32) → ct(S64x64, .f32))
local notation "matProd" => ((fun l r => Host.dotGeneral dot_S100000x64_S64x64_S100000x64_1_0_0_1_n_n none l r) : ct(S100000x64, .f32) → ct(S64x64, .f32) → ct(S100000x64, .f32))
local notation "edgeCol" T => (broadcastInDim S1600000x1 ![0] bcast_S1600000_S1600000x1_0 : ct(S1600000, T) → ct(S1600000x1, T))
local notation "splatEdge" => (broadcastInDim S1600000 ![] bcast_S_S1600000 : ct(S_, .i32) → ct(S1600000, .i32))

/-- The reference's 121 operations: the aggregation (16), the first hop (52), the second hop (52), the sum. -/
abbrev ops : List (HloOp τ sig (Elt F)) :=
  [ unary main_arg1 main_v0 (edgeCol .f32),
    nullary main_c (constantI S_ 32 0#32),
    unary main_c main_v1 splatEdge,
    binary main_arg11 main_v1 main_v2 (cmpi .slt : ct(S1600000, .i32) → ct(S1600000, .i32) → ct(S1600000, .i1)),
    nullary main_c_0 (constantI S_ 32 100000#32),
    unary main_c_0 main_v3 splatEdge,
    binary main_arg11 main_v3 main_v4 (addi : ct(S1600000, .i32) → ct(S1600000, .i32) → ct(S1600000, .i32)),
    ternary main_v2 main_v4 main_arg11 main_v5 (select : ct(S1600000, .i1) → ct(S1600000, .i32) → ct(S1600000, .i32) → ct(S1600000, .i32)),
    unary main_v5 main_v6 (edgeCol .i32),
    binary main_arg0 main_v6 main_v7 ((fun x i => Host.gather gather_S100000x64_S1600000x1_S1600000x64_1_0_n_n_0_1_164 x i) : ct(S100000x64, .f32) → ct(S1600000x1, .i32) → ct(S1600000x64, .f32)),
    unary main_v0 main_v8 (broadcastInDim S1600000x64 ![0, 1] bcast_S1600000x1_S1600000x64_0_1 : ct(S1600000x1, .f32) → ct(S1600000x64, .f32)),
    binary main_v8 main_v7 main_v9 (mulf : ct(S1600000x64, .f32) → ct(S1600000x64, .f32) → ct(S1600000x64, .f32)),
    nullary main_cst zeroS,
    unary main_cst main_v10 splatMat,
    unary main_arg10 main_v11 (edgeCol .i32),
    ternary main_v10 main_v11 main_v9 main_v12 ((fun x i u => Host.scatterAdd scatter_S100000x64_S1600000x1_S1600000x64_1_0_0_1 x i u) : ct(S100000x64, .f32) → ct(S1600000x1, .i32) → ct(S1600000x64, .f32) → ct(S100000x64, .f32)),
    -- the first hop, on the raw features
    unary main_arg2 main_v13 transp,
    binary main_arg0 main_v13 main_v14 matProd,
    unary main_arg3 main_v15 vecToRow,
    unary main_v15 main_v16 rowToMat,
    binary main_v14 main_v16 main_v17 (matOp addf),
    nullary main_call0_cst zeroS,
    unary main_call0_cst main_call0_v0 splatMat,
    binary main_v17 main_call0_v0 main_v18 (matOp maximumf),
    nullary main_cst_1 zeroS,
    binary main_v18 main_cst_1 main_v19 rowSum,
    unary main_v19 main_v20 toCol,
    nullary main_cst_2 c64S,
    unary main_cst_2 main_v21 splatCol,
    binary main_v20 main_v21 main_v22 (colOp Host.divf),
    nullary main_c_3 (constantI S_ 32 0#32),
    nullary main_call1_cst zeroS,
    binary main_v18 main_call1_cst main_call1_v0 rowSum,
    unary main_call1_v0 main_call1_v1 toCol,
    nullary main_call1_cst_0 c64S,
    unary main_call1_cst_0 main_call1_v2 splatCol,
    binary main_call1_v1 main_call1_v2 main_call1_v3 (colOp Host.divf),
    unary main_call1_v3 main_call1_v4 colToMat,
    binary main_v18 main_call1_v4 main_call1_v5 (matOp subf),
    binary main_call1_v5 main_call1_v5 main_call1_v6 (matOp mulf),
    unary main_c_3 main_call1_v7 (sitofp .f32 : ct(S_, .i32) → ct(S_, .f32)),
    nullary main_call1_cst_1 c64S,
    binary main_call1_cst_1 main_call1_v7 main_call1_v8 (subf : ct(S_, .f32) → ct(S_, .f32) → ct(S_, .f32)),
    nullary main_call1_cst_2 zeroS,
    binary main_call1_v6 main_call1_cst_2 main_call1_v9 rowSum,
    unary main_call1_v9 main_call1_v10 toCol,
    unary main_call1_v8 main_call1_v11 splatCol,
    binary main_call1_v10 main_call1_v11 main_call1_v12 (colOp Host.divf),
    nullary main_call1_cst_3 zeroS,
    binary main_call1_v8 main_call1_cst_3 main_call1_v13 (cmpf .ogt : ct(S_, .f32) → ct(S_, .f32) → ct(S_, .i1)),
    nullary main_call1_cst_4 (constant S_ .f32 0x7FC00000#32 : ct(S_, .f32)),
    unary main_call1_cst_4 main_call1_call0_v0 (id : ct(S_, .f32) → ct(S_, .f32)),
    unary main_call1_call0_v0 main_call1_call0_v1 splatCol,
    ternary main_call1_v13 main_call1_v12 main_call1_call0_v1 main_v23 ((fun p a b => select (broadcastInDim S100000x1 ![] bcast_S_S100000x1 p) a b) : ct(S_, .i1) → ct(S100000x1, .f32) → ct(S100000x1, .f32) → ct(S100000x1, .f32)),
    nullary main_cst_4 (constant S_ .f32 0x3089705F#32 : ct(S_, .f32)),
    unary main_cst_4 main_v24 splatCol,
    binary main_v23 main_v24 main_v25 (colOp addf),
    unary main_v22 main_v26 colToMat,
    binary main_v18 main_v26 main_v27 (matOp subf),
    unary main_arg4 main_v28 vecToRow,
    unary main_v28 main_v29 rowToMat,
    binary main_v27 main_v29 main_v30 (matOp mulf),
    unary main_v25 main_v31 (Host.rsqrt : ct(S100000x1, .f32) → ct(S100000x1, .f32)),
    unary main_v31 main_v32 colToMat,
    binary main_v30 main_v32 main_v33 (matOp mulf),
    unary main_arg5 main_v34 vecToRow,
    unary main_v34 main_v35 rowToMat,
    binary main_v33 main_v35 main_v36 (matOp addf),
    -- the second hop, on the aggregated features
    unary main_arg6 main_v37 transp,
    binary main_v12 main_v37 main_v38 matProd,
    unary main_arg7 main_v39 vecToRow,
    unary main_v39 main_v40 rowToMat,
    binary main_v38 main_v40 main_v41 (matOp addf),
    nullary main_call2_cst zeroS,
    unary main_call2_cst main_call2_v0 splatMat,
    binary main_v41 main_call2_v0 main_v42 (matOp maximumf),
    nullary main_cst_5 zeroS,
    binary main_v42 main_cst_5 main_v43 rowSum,
    unary main_v43 main_v44 toCol,
    nullary main_cst_6 c64S,
    unary main_cst_6 main_v45 splatCol,
    binary main_v44 main_v45 main_v46 (colOp Host.divf),
    nullary main_c_7 (constantI S_ 32 0#32),
    nullary main_call3_cst zeroS,
    binary main_v42 main_call3_cst main_call3_v0 rowSum,
    unary main_call3_v0 main_call3_v1 toCol,
    nullary main_call3_cst_0 c64S,
    unary main_call3_cst_0 main_call3_v2 splatCol,
    binary main_call3_v1 main_call3_v2 main_call3_v3 (colOp Host.divf),
    unary main_call3_v3 main_call3_v4 colToMat,
    binary main_v42 main_call3_v4 main_call3_v5 (matOp subf),
    binary main_call3_v5 main_call3_v5 main_call3_v6 (matOp mulf),
    unary main_c_7 main_call3_v7 (sitofp .f32 : ct(S_, .i32) → ct(S_, .f32)),
    nullary main_call3_cst_1 c64S,
    binary main_call3_cst_1 main_call3_v7 main_call3_v8 (subf : ct(S_, .f32) → ct(S_, .f32) → ct(S_, .f32)),
    nullary main_call3_cst_2 zeroS,
    binary main_call3_v6 main_call3_cst_2 main_call3_v9 rowSum,
    unary main_call3_v9 main_call3_v10 toCol,
    unary main_call3_v8 main_call3_v11 splatCol,
    binary main_call3_v10 main_call3_v11 main_call3_v12 (colOp Host.divf),
    nullary main_call3_cst_3 zeroS,
    binary main_call3_v8 main_call3_cst_3 main_call3_v13 (cmpf .ogt : ct(S_, .f32) → ct(S_, .f32) → ct(S_, .i1)),
    nullary main_call3_cst_4 (constant S_ .f32 0x7FC00000#32 : ct(S_, .f32)),
    unary main_call3_cst_4 main_call3_call0_v0 (id : ct(S_, .f32) → ct(S_, .f32)),
    unary main_call3_call0_v0 main_call3_call0_v1 splatCol,
    ternary main_call3_v13 main_call3_v12 main_call3_call0_v1 main_v47 ((fun p a b => select (broadcastInDim S100000x1 ![] bcast_S_S100000x1 p) a b) : ct(S_, .i1) → ct(S100000x1, .f32) → ct(S100000x1, .f32) → ct(S100000x1, .f32)),
    nullary main_cst_8 (constant S_ .f32 0x3089705F#32 : ct(S_, .f32)),
    unary main_cst_8 main_v48 splatCol,
    binary main_v47 main_v48 main_v49 (colOp addf),
    unary main_v46 main_v50 colToMat,
    binary main_v42 main_v50 main_v51 (matOp subf),
    unary main_arg8 main_v52 vecToRow,
    unary main_v52 main_v53 rowToMat,
    binary main_v51 main_v53 main_v54 (matOp mulf),
    unary main_v49 main_v55 (Host.rsqrt : ct(S100000x1, .f32) → ct(S100000x1, .f32)),
    unary main_v55 main_v56 colToMat,
    binary main_v54 main_v56 main_v57 (matOp mulf),
    unary main_arg9 main_v58 vecToRow,
    unary main_v58 main_v59 rowToMat,
    binary main_v57 main_v59 main_v60 (matOp addf),
    binary main_v36 main_v60 main_v61 (matOp addf) ]

set_option maxRecDepth 8192 in
set_option maxHeartbeats 4000000 in
/-- The program is that line: the outlined functions' bodies unfolded at their calls, the two halves of @main joined. -/
theorem main_eq (c : Dev nD) : main (F := F) c = seq ops := by
  simp only [main, main_part0, main_part1, fn_relu.body, fn_var.body, fn_where.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp only [ops, List.Forall, nullary_bufs_sub, unary_bufs_sub, binary_bufs_sub, ternary_bufs_sub, and_self]

set_option maxHeartbeats 16000000 in
/-- The result buffer after the line, from any contents: the composed function of the twelve argument buffers. -/
theorem out_eq (V : Valuation τ sig (Elt F)) :
    after ops V (main_v61 : DevRef τ sig)
      = outR (V (main_arg0 : DevRef τ sig)) (V (main_arg1 : DevRef τ sig)) (V (main_arg2 : DevRef τ sig)) (V (main_arg3 : DevRef τ sig))
          (V (main_arg4 : DevRef τ sig)) (V (main_arg5 : DevRef τ sig)) (V (main_arg6 : DevRef τ sig)) (V (main_arg7 : DevRef τ sig))
          (V (main_arg8 : DevRef τ sig)) (V (main_arg9 : DevRef τ sig)) (V (main_arg10 : DevRef τ sig)) (V (main_arg11 : DevRef τ sig)) := by
  after_results_simp
  rfl

set_option maxHeartbeats 16000000 in
/-- No operation writes an argument buffer. -/
theorem args_eq (V : Valuation τ sig (Elt F)) :
    after ops V (main_arg0 : DevRef τ sig) = V (main_arg0 : DevRef τ sig)
    ∧ after ops V (main_arg1 : DevRef τ sig) = V (main_arg1 : DevRef τ sig)
    ∧ after ops V (main_arg2 : DevRef τ sig) = V (main_arg2 : DevRef τ sig)
    ∧ after ops V (main_arg3 : DevRef τ sig) = V (main_arg3 : DevRef τ sig)
    ∧ after ops V (main_arg4 : DevRef τ sig) = V (main_arg4 : DevRef τ sig)
    ∧ after ops V (main_arg5 : DevRef τ sig) = V (main_arg5 : DevRef τ sig)
    ∧ after ops V (main_arg6 : DevRef τ sig) = V (main_arg6 : DevRef τ sig)
    ∧ after ops V (main_arg7 : DevRef τ sig) = V (main_arg7 : DevRef τ sig)
    ∧ after ops V (main_arg8 : DevRef τ sig) = V (main_arg8 : DevRef τ sig)
    ∧ after ops V (main_arg9 : DevRef τ sig) = V (main_arg9 : DevRef τ sig)
    ∧ after ops V (main_arg10 : DevRef τ sig) = V (main_arg10 : DevRef τ sig)
    ∧ after ops V (main_arg11 : DevRef τ sig) = V (main_arg11 : DevRef τ sig) := by
  refine ⟨?_, ?_, ?_, ?_, ?_, ?_, ?_, ?_, ?_, ?_, ?_, ?_⟩ <;> after_results_simp

/-- Every weakly fair execution of the reference terminates with the result buffer at the composed function of the
    arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v61)
        = outR (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
            (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c =>
      have ha := args_eq (launchContents m c)
      ⟨(h c main_v61).trans (out_eq (launchContents m c)),
        (h c main_arg0).trans ha.1, (h c main_arg1).trans ha.2.1, (h c main_arg2).trans ha.2.2.1, (h c main_arg3).trans ha.2.2.2.1,
        (h c main_arg4).trans ha.2.2.2.2.1, (h c main_arg5).trans ha.2.2.2.2.2.1, (h c main_arg6).trans ha.2.2.2.2.2.2.1,
        (h c main_arg7).trans ha.2.2.2.2.2.2.2.1, (h c main_arg8).trans ha.2.2.2.2.2.2.2.2.1, (h c main_arg9).trans ha.2.2.2.2.2.2.2.2.2.1,
        (h c main_arg10).trans ha.2.2.2.2.2.2.2.2.2.2.1, (h c main_arg11).trans ha.2.2.2.2.2.2.2.2.2.2.2⟩)
    (run_seq scopedRefs_eq scopedSems_eq defs main (fun _ => ops) main_eq (fun _ => ops_sub) m ρ)

end Cert.ReferenceIdeal.RefRun

end
-- ==== Proof.LibHostKeepdims.lean ====
/-
  The host's keepdims layout forms and its one-axis sum of a matrix, read at an index.

  * `bcast_a_a1_apply`: an `[a]` vector placed along axis 0 of an `[a, 1]` column reads, at `(p, u)`, the vector at `p`.
  * `bcast_a1_ab_apply`: an `[a, 1]` column spread over `b` columns reads, at `(p, q)`, the column at `(p, 0)`.
  * `bcast_b_1b_apply`: a `[b]` vector placed along axis 1 of a `[1, b]` row reads, at `(u, k)`, the vector at `k`.
  * `hostRowSum_apply`: at the ideal values the host's sum of an `[a, b]` matrix along axis 1, from the initial value
    `init`, is at `p` the initial value plus the sum over `k` of the entries `(p, k)`.
-/
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.LibHostKeepdims

open Idealize.ShloMosaic Idealize.ShloMosaic.ValueIdx

variable {α : Type}

/-- An `[a]` vector placed along axis 0 of an `[a, 1]` column reads, at `(p, u)`, the vector at `p`. -/
theorem bcast_a_a1_apply {a : ℕ} (h : (⟨1, ![a]⟩ : Shape).BroadcastsInDim ⟨2, ![a, 1]⟩ ![0]) (v : (⟨1, ![a]⟩ : Shape).Idx → α)
    (p : Fin a) (u : Fin 1) : broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- An `[a, 1]` column spread over `b` columns reads, at `(p, q)`, the column at `(p, 0)`. -/
theorem bcast_a1_ab_apply {a b : ℕ} (h : (⟨2, ![a, 1]⟩ : Shape).BroadcastsInDim ⟨2, ![a, b]⟩ ![0, 1]) (v : (⟨2, ![a, 1]⟩ : Shape).Idx → α)
    (p : Fin a) (q : Fin b) : broadcastInDim ⟨2, ![a, b]⟩ ![0, 1] h v (ix2 p q) = v (ix2 p (0 : Fin 1)) := by
  refine broadcastInDim_apply ![0, 1] h v (ix2 p q) (ix2 p (0 : Fin 1)) fun ax => ?_
  match ax with
  | ⟨0, _⟩ =>
    show p.val = if a = 1 then 0 else p.val
    split
    · have := p.isLt; omega
    · rfl
  | ⟨1, _⟩ => rfl

/-- A `[b]` vector placed along axis 1 of a `[1, b]` row reads, at `(u, k)`, the vector at `k`. -/
theorem bcast_b_1b_apply {b : ℕ} (h : (⟨1, ![b]⟩ : Shape).BroadcastsInDim ⟨2, ![1, b]⟩ ![1]) (v : (⟨1, ![b]⟩ : Shape).Idx → α)
    (u : Fin 1) (k : Fin b) : broadcastInDim ⟨2, ![1, b]⟩ ![1] h v (ix2 u k) = v (ix1 k) := by
  refine broadcastInDim_apply ![1] h v (ix2 u k) (ix1 k) fun ax => ?_
  match ax with
  | ⟨0, _⟩ =>
    show k.val = if b = 1 then 0 else k.val
    split
    · have := k.isLt; omega
    · rfl

/-- At the ideal values the host's sum of an `[a, b]` matrix along axis 1 is, at `p`, the initial value plus the sum over
    `k` of the entries `(p, k)`. -/
theorem hostRowSum_apply {a b : ℕ} {φ : FTy} (x : FVec Ideal ⟨2, ![a, b]⟩ φ) (init : (⟨0, ![]⟩ : Shape).Idx → Ideal φ)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduceAdd x init h' hu (ix1 p) = init (Shape.Idx.first hu) + ∑ k : Fin b, x (ix2 p k) := by
  refine (hostReduceAdd_apply x init h' hu (ix1 p)).trans ?_
  refine (Ideal.hostReduceAdd_single h' h x _ (ix1 p)).trans ?_
  refine congrArg (init (Shape.Idx.first hu) + ·) (Finset.sum_congr rfl fun k _ => congrArg x (funext fun ax => Fin.ext ?_))
  match ax with
  | ⟨0, _⟩ => rfl
  | ⟨1, _⟩ => rfl

end Cert.LibHostKeepdims

end
-- ==== Proof.RefRead.lean ====
/-
  The reference's composed function, read entry by entry at the ideal values: it is the specification.

  Entry (p, q) of each whole-array stage depends on row p only: the product's entry is a sum over the shared
  coordinate; a row of 64 numbers spread over the rows reads its own entry; a column spread over the columns reads
  its row's entry; a row sum from the initial value zero is the sum. In jnp.var's body the divisor is 64 minus a
  converted integer zero, that is 64, and 64 is positive, so the selection takes the quotient.
-/
import proofs.«118061_j26740466385630_1_alg».proof.Proof.RefDefs
import proofs.«118061_j26740466385630_1_alg».proof.Proof.Spec
import proofs.«118061_j26740466385630_1_alg».proof.Proof.LibPlainDot
import proofs.«118061_j26740466385630_1_alg».proof.Proof.LibHostKeepdims
import Idealize.ShloMosaic.Lib.Pipeline.Value
import Idealize.ShloMosaic.Lib.ValueIdx
import Idealize.ShloMosaic.Lib.IdealHost
import Idealize.ShloMosaic.Lib.KernelVsHost
import Idealize.ShloMosaic.PureOps.Ideal.Laws

noncomputable section

open scoped BigOperators

namespace Cert.ReferenceIdeal.RefRead

open Cert.ReferenceIdeal Cert.ReferenceIdeal.Gen Cert.ReferenceIdeal.RefRun Idealize.ShloMosaic Idealize.ShloMosaic.ValueIdx Cert.HopSpec
open Cert.LibHostKeepdims

theorem hostRsqrt_apply {s : Shape} {φ : FTy} (x : FVec Ideal s φ) (i : s.Idx) : Host.rsqrt x i = Ideal.rsqrt (x i) := rfl

theorem dot_eq_plain : dot_S100000x64_S64x64_S100000x64_1_0_0_1_n_n = DotDims.plain 100000 64 64 := rfl

/-- The row sum's shape fact, in the form that names the inserted coordinate. -/
theorem reduces_rows : S100000x64.Reduces [1] S100000 := by decide

/-- The f32 word 0x42800000 is sixty-four. -/
theorem c64_eq : c64 = ((64 : ℝ) : EReal) := by
  simp [c64, Ideal.ofBits, Ideal.ieee, -EReal.coe_mul]; norm_num

/-- Entry (p, k) of the linear layer is the specification's `act` of row p. -/
theorem actR_apply (feat : S100000x64.Idx → EReal) (wt : S64x64.Idx → EReal) (b : S64.Idx → EReal) (p : Fin 100000) (k : Fin 64) :
    actR (F := Ideal) feat wt b (ix2 p k) = act (fun l => feat (ix2 p l)) wt (fun k => b (ix1 k)) k := by
  unfold actR act
  have hm := PlainDot.dotGeneral_apply (φ₁ := .f32) (φ₂ := .f32) 100000 64 64 none .single feat wt p k
  rw [maximumf_apply, addf_apply, broadcastInDim_scalar_apply, broadcastInDim_oneRow_apply, bcast_b_1b_apply]
  exact congrArg (fun z => max (z + b (ix1 k)) czero) hm

/-- Entry (p, 0) of the means' column is the mean of row p. -/
theorem meanR_apply (h : S100000x64.Idx → EReal) (p : Fin 100000) :
    meanR (F := Ideal) h (ix2 p (0 : Fin 1)) = rowMean (fun k => h (ix2 p k)) := by
  unfold meanR rowMean
  rw [hostDivf_apply, bcast_a_a1_apply, broadcastInDim_scalar_apply,
    hostRowSum_apply (h : FVec Ideal S100000x64 .f32) _ reducesTo_S100000x64_S100000_d1 reduces_rows h_S_ p]
  show Ideal.div (Ideal.ofBits .f32 0x00000000#32 + ∑ k : Fin 64, h (ix2 p k)) c64 = _
  rw [Ideal.ofBits_zero_f32, zero_add]

/-- Entry (p, k) of the deviations is the entry minus the mean of row p. -/
theorem devR_apply (h : S100000x64.Idx → EReal) (p : Fin 100000) (k : Fin 64) :
    devR (F := Ideal) h (ix2 p k) = h (ix2 p k) - rowMean (fun k => h (ix2 p k)) := by
  unfold devR
  rw [subf_apply, bcast_a1_ab_apply, meanR_apply]

/-- The variance's divisor is sixty-four. -/
theorem nR_apply : nR (F := Ideal) ix0 = c64 := by
  unfold nR
  show c64 - (((0#32 : BitVec 32).toInt : ℝ) : EReal) = c64
  simp

/-- Sixty-four is positive, so the comparison is true. -/
theorem cmp_nR : cmpf (F := Ideal) .ogt (nR (F := Ideal)) (constant S_ .f32 0x00000000#32) ix0 = 1#1 := by
  rw [cmpf_apply, nR_apply]
  show Ideal.cmp .ogt c64 (Ideal.ofBits .f32 0x00000000#32) = 1#1
  rw [Ideal.ofBits_zero_f32, c64_eq]
  unfold Ideal.cmp
  have h : (0 : EReal) < ((64 : ℝ) : EReal) := by exact_mod_cast (by norm_num : (0 : ℝ) < 64)
  simp [h]

/-- Entry (p, 0) of the variances' column plus ε is the specification's variance of row p. -/
theorem varR_apply (h : S100000x64.Idx → EReal) (p : Fin 100000) :
    varR (F := Ideal) h (ix2 p (0 : Fin 1)) + ceps = rowVar (fun k => h (ix2 p k)) := by
  unfold varR rowVar
  rw [select_apply, broadcastInDim_scalar_apply, cmp_nR, select_one, hostDivf_apply, bcast_a_a1_apply, broadcastInDim_scalar_apply,
    nR_apply,
    hostRowSum_apply (mulf (devR (F := Ideal) h) (devR (F := Ideal) h) : FVec Ideal S100000x64 .f32) _ reducesTo_S100000x64_S100000_d1 reduces_rows h_S_ p]
  show Ideal.div (Ideal.ofBits .f32 0x00000000#32 + ∑ k : Fin 64, (mulf (devR (F := Ideal) h) (devR (F := Ideal) h) : FVec Ideal S100000x64 .f32) (ix2 p k)) c64 + ceps = _
  rw [Ideal.ofBits_zero_f32, zero_add]
  refine congrArg (fun z => Ideal.div z c64 + ceps) (Finset.sum_congr rfl fun k _ => ?_)
  rw [mulf_apply, devR_apply]

/-- Entry (p, q) of the normalised rows is the specification's `rowNorm` of row p. -/
theorem normR_apply (h : S100000x64.Idx → EReal) (s o : S64.Idx → EReal) (p : Fin 100000) (q : Fin 64) :
    normR (F := Ideal) h s o (ix2 p q) = rowNorm (fun k => h (ix2 p k)) (fun k => s (ix1 k)) (fun k => o (ix1 k)) q := by
  unfold normR rowNorm
  rw [addf_apply, mulf_apply, mulf_apply, broadcastInDim_oneRow_apply, broadcastInDim_oneRow_apply, bcast_b_1b_apply, bcast_b_1b_apply,
    bcast_a1_ab_apply, hostRsqrt_apply, addf_apply, broadcastInDim_scalar_apply, devR_apply]
  show (h (ix2 p q) - rowMean (fun k => h (ix2 p k))) * s (ix1 q) * Ideal.rsqrt (varR (F := Ideal) h (ix2 p (0 : Fin 1)) + ceps) + o (ix1 q) = _
  rw [varR_apply]

/-- The reference's composed function is the specification's function of the same arrays. -/
theorem outR_eq (x : S100000x64.Idx → EReal) (ev : S1600000.Idx → EReal) (w0 w1 : S64x64.Idx → EReal) (b0 s0 o0 b1 s1 o1 : S64.Idx → EReal)
    (er ec : S1600000.Idx → BitVec 32) :
    outR (F := Ideal) x ev w0 b0 s0 o0 w1 b1 s1 o1 er ec
      = G x (aggR (F := Ideal) x ev er ec) (transpose S64x64 [1, 0] w0 transposes_S64x64_S64x64_1_0)
          (transpose S64x64 [1, 0] w1 transposes_S64x64_S64x64_1_0) b0 s0 o0 b1 s1 o1 := by
  funext i
  obtain ⟨p, q, rfl⟩ : ∃ (p : Fin 100000) (q : Fin 64), i = ix2 p q := ⟨i 0, i 1, eq_ix2 i⟩
  rw [G_ix2]
  unfold outR Gat GatRows hop
  rw [addf_apply, normR_apply, normR_apply]
  refine congrArg₂ (· + ·) ?_ ?_
  · exact congrArg (fun f => rowNorm f _ _ q) (funext fun k => actR_apply _ _ _ p k)
  · exact congrArg (fun f => rowNorm f _ _ q) (funext fun k => actR_apply _ _ _ p k)

end Cert.ReferenceIdeal.RefRead

end
-- ==== Proof.lean ====
/-
  A two-hop graph layer: the kernel's program against its jnp reference, over the extended reals.

  Both programs first aggregate the node features over the edges, agg[r] = ∑ over edges e with row[e] = r of
  val[e] · x[col[e]], by the same gather, product and scatter-add on the host. Then each node's row goes through two
  hops, one on the raw features with W0, b0, scale0, offset0 and one on the aggregated features with W1, b1, scale1,
  offset1:
      h = relu (row · Wᵀ + b),   mean = (∑ h) / 64,   var = (∑ (h − mean)²) / 64 + ε,
      hop = (h − mean) · scale · rsqrt var + offset,
  and the result is the sum of the two hops. The kernel computes the hops in one region over a grid of 20 blocks of
  5000 rows (its products take operands rounded to bf16, which is no change at the ideal values, into a zero
  accumulator); the reference computes them on whole arrays, with the variance by jnp.var's own body, whose divisor
  64 − 0 is 64 and positive. Entry by entry both are the function `Cert.HopSpec.G` of the same arrays: no
  algebraic law is needed beyond 0 + s = s for the row sums' initial value, so the finiteness of the inputs is not used.
-/
import proofs.«118061_j26740466385630_1_alg».proof.Defs
import proofs.«118061_j26740466385630_1_alg».proof.Proof.Gen.Kernel
import proofs.«118061_j26740466385630_1_alg».proof.Proof.Gen.Kernel.Frame
import proofs.«118061_j26740466385630_1_alg».proof.Proof.Gen.KernelIdeal
import proofs.«118061_j26740466385630_1_alg».proof.Proof.Gen.KernelIdeal.Frame
import proofs.«118061_j26740466385630_1_alg».proof.Proof.Gen.KernelIdeal.Value
import proofs.«118061_j26740466385630_1_alg».proof.Proof.Gen.ReferenceIdeal
import proofs.«118061_j26740466385630_1_alg».proof.Proof.Gen.Pre_finite_inputs
import proofs.«118061_j26740466385630_1_alg».proof.Proof.KernelValue
import proofs.«118061_j26740466385630_1_alg».proof.Proof.RefRun
import proofs.«118061_j26740466385630_1_alg».proof.Proof.RefRead
import Idealize.ShloMosaic.Adequacy
import Idealize.ShloMosaic.Init

noncomputable section

namespace Cert.Proof

open Idealize.ShloMosaic Idealize.SL.Sem

/-- The two programs' aggregation is one function: the same gather, product and scatter-add with the same tables. -/
theorem agg_eq {F : FTy → Type} [FloatOps F] (x : Cert.ReferenceIdeal.S100000x64.Idx → Elt F .f32)
    (ev : Cert.ReferenceIdeal.S1600000.Idx → Elt F .f32) (er ec : Cert.ReferenceIdeal.S1600000.Idx → Elt F .i32) :
    Cert.ReferenceIdeal.RefRun.aggR (F := F) x ev er ec = Cert.KernelIdeal.KHost.aggK (F := F) x ev er ec := rfl

theorem frame_k : Cert.frame_Kernel := fun m ρ _ => Cert.Kernel.Gen.frame m ρ

theorem frame_ki : Cert.frame_KernelIdeal := fun m ρ _ => Cert.KernelIdeal.Gen.frame m ρ

/-- The reference's run keeps its arguments. -/
theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- From memories agreeing on the arguments both programs end with the specification's function of the arguments. -/
theorem algebraic : Cert.algebraic_KernelIdeal_ReferenceIdeal := by
  intro m ρ m' ρ' _ hagree
  refine ⟨fun c => Cert.KernelIdeal.KValue.GK m c, Cert.KernelIdeal.KValue.run m ρ, ?_⟩
  refine (θ_run Cert.ReferenceIdeal.defs _ _).mono (fun _ h c => ⟨(h c).1.trans ?_, (h c).2⟩)
    (Cert.ReferenceIdeal.RefRun.run (F := Ideal) m' ρ')
  obtain ⟨a0, a1, a2, a3, a4, a5, a6, a7, a8, a9, a10, a11⟩ := hagree c
  rw [a0, a1, a2, a3, a4, a5, a6, a7, a8, a9, a10, a11, Cert.ReferenceIdeal.RefRead.outR_eq, agg_eq]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
